-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47_1)) (v1 : (c : Dev Cert.KernelIdeal.nD) → Buf (Elt Ideal) ((c.tc : Thread Cert.KernelIdeal.nD Cert.KernelIdeal.τ).loc Cert.KernelIdeal.main_v47_2)) (v2 : (c : Dev Cert.KernelIdeal.nD) → Buf (Elt Ideal) ((c.tc : Thread Cert.KernelIdeal.nD Cert.KernelIdeal.τ).loc Cert.KernelIdeal.main_v47_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_1) = v0 c
          ∧ r.2.mem ((c.tc : Thread Cert.KernelIdeal.nD Cert.KernelIdeal.τ).loc Cert.KernelIdeal.main_v47_2) = v1 c
          ∧ r.2.mem ((c.tc : Thread Cert.KernelIdeal.nD Cert.KernelIdeal.τ).loc Cert.KernelIdeal.main_v47_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x394 : Shape := ⟨2, ![50000, 394]⟩
abbrev S200000 : Shape := ⟨1, ![200000]⟩
abbrev S788x192 : Shape := ⟨2, ![788, 192]⟩
abbrev S192 : Shape := ⟨1, ![192]⟩
abbrev S192x128 : Shape := ⟨2, ![192, 128]⟩
abbrev S128 : Shape := ⟨1, ![128]⟩
abbrev S128x192 : Shape := ⟨2, ![128, 192]⟩
abbrev S192x788 : Shape := ⟨2, ![192, 788]⟩
abbrev S788 : Shape := ⟨1, ![788]⟩
abbrev S_ : Shape := ⟨0, ![]⟩

class Facts : Prop where
  bcast_S_S50000x394 : S_.BroadcastsInDim S50000x394 (![] : Fin 0 → Fin S50000x394.rank)
  reducesTo_S50000x394_S_d0_1 : S50000x394.ReducesTo [0, 1] S_
  h_S_ : 0 < S_.numel
  bcast_S_S788x192 : S_.BroadcastsInDim S788x192 (![] : Fin 0 → Fin S788x192.rank)
  reducesTo_S788x192_S_d0_1 : S788x192.ReducesTo [0, 1] S_
  bcast_S_S192 : S_.BroadcastsInDim S192 (![] : Fin 0 → Fin S192.rank)
  reducesTo_S192_S_d0 : S192.ReducesTo [0] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x192 : S_.BroadcastsInDim S128x192 (![] : Fin 0 → Fin S128x192.rank)
  reducesTo_S128x192_S_d0_1 : S128x192.ReducesTo [0, 1] S_
  bcast_S_S192x788 : S_.BroadcastsInDim S192x788 (![] : Fin 0 → Fin S192x788.rank)
  reducesTo_S192x788_S_d0_1 : S192x788.ReducesTo [0, 1] S_
  bcast_S_S788 : S_.BroadcastsInDim S788 (![] : Fin 0 → Fin S788.rank)
  reducesTo_S788_S_d0 : S788.ReducesTo [0] S_

variable [Facts]

def fn_part2 {F : FTy → Type} [FloatOps F] (main_arg9 : FVec F S192x788 .f32) (main_arg10 : FVec F S788 .f32) (main_v33 : IVec S_ 1) : IVec S_ 1 :=
  let main_v34 : FVec F S192x788 .f32 := Host.absf main_arg9
  let main_cst_12 : FVec F S_ .f32 := constant S_ .f32 0x7F800000#32
  let main_v35 : FVec F S192x788 .f32 := broadcastInDim S192x788 ![] bcast_S_S192x788 main_cst_12
  let main_v36 : IVec S192x788 1 := cmpf .olt main_v34 main_v35
  let main_c_13 : IVec S_ 1 := constantI S_ 1 1#1
  let main_v37 : IVec S_ 1 := (fun x v => Host.reduce IntOp.andi x v reducesTo_S192x788_S_d0_1 h_S_) main_v36 main_c_13
  let main_v38 : IVec S_ 1 := andi main_v33 main_v37
  let main_v39 : FVec F S788 .f32 := Host.absf main_arg10
  let main_cst_14 : FVec F S_ .f32 := constant S_ .f32 0x7F800000#32
  let main_v40 : FVec F S788 .f32 := broadcastInDim S788 ![] bcast_S_S788 main_cst_14
  let main_v41 : IVec S788 1 := cmpf .olt main_v39 main_v40
  let main_c_15 : IVec S_ 1 := constantI S_ 1 1#1
  let main_v42 : IVec S_ 1 := (fun x v => Host.reduce IntOp.andi x v reducesTo_S788_S_d0 h_S_) main_v41 main_c_15
  let main_v43 : IVec S_ 1 := andi main_v38 main_v42
  main_v43

def fn_part1 {F : FTy → Type} [FloatOps F] (main_arg6 : FVec F S128 .f32) (main_arg7 : FVec F S128x192 .f32) (main_arg8 : FVec F S192 .f32) (main_arg9 : FVec F S192x788 .f32) (main_arg10 : FVec F S788 .f32) (main_v13 : IVec S_ 1) (main_v16 : IVec S192x128 1) : IVec S_ 1 :=
  let main_c_5 : IVec S_ 1 := constantI S_ 1 1#1
  let main_v17 : IVec S_ 1 := (fun x v => Host.reduce IntOp.andi x v reducesTo_S192x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x192 .f32 := Host.absf main_arg7
  let main_cst_8 : FVec F S_ .f32 := constant S_ .f32 0x7F800000#32
  let main_v25 : FVec F S128x192 .f32 := broadcastInDim S128x192 ![] bcast_S_S128x192 main_cst_8
  let main_v26 : IVec S128x192 1 := cmpf .olt main_v24 main_v25
  let main_c_9 : IVec S_ 1 := constantI S_ 1 1#1
  let main_v27 : IVec S_ 1 := (fun x v => Host.reduce IntOp.andi x v reducesTo_S128x192_S_d0_1 h_S_) main_v26 main_c_9
  let main_v28 : IVec S_ 1 := andi main_v23 main_v27
  let main_v29 : FVec F S192 .f32 := Host.absf main_arg8
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg9 main_arg10 main_v33

def fn {F : FTy → Type} [FloatOps F] (main_arg0 : FVec F S50000x394 .f32) (main_arg1 : IVec S200000 32) (main_arg2 : IVec S200000 32) (main_arg3 : FVec F S788x192 .f32) (main_arg4 : FVec F S192 .f32) (main_arg5 : FVec F S192x128 .f32) (main_arg6 : FVec F S128 .f32) (main_arg7 : FVec F S128x192 .f32) (main_arg8 : FVec F S192 .f32) (main_arg9 : FVec F S192x788 .f32) (main_arg10 : FVec F S788 .f32) : IVec S_ 1 :=
  let main_v0 : FVec F S50000x394 .f32 := Host.absf main_arg0
  let main_cst : FVec F S_ .f32 := constant S_ .f32 0x7F800000#32
  let main_v1 : FVec F S50000x394 .f32 := broadcastInDim S50000x394 ![] bcast_S_S50000x394 main_cst
  let main_v2 : IVec S50000x394 1 := cmpf .olt main_v0 main_v1
  let main_c : IVec S_ 1 := constantI S_ 1 1#1
  let main_v3 : IVec S_ 1 := (fun x v => Host.reduce IntOp.andi x v reducesTo_S50000x394_S_d0_1 h_S_) main_v2 main_c
  let main_v4 : FVec F S788x192 .f32 := Host.absf main_arg3
  let main_cst_0 : FVec F S_ .f32 := constant S_ .f32 0x7F800000#32
  let main_v5 : FVec F S788x192 .f32 := broadcastInDim S788x192 ![] bcast_S_S788x192 main_cst_0
  let main_v6 : IVec S788x192 1 := cmpf .olt main_v4 main_v5
  let main_c_1 : IVec S_ 1 := constantI S_ 1 1#1
  let main_v7 : IVec S_ 1 := (fun x v => Host.reduce IntOp.andi x v reducesTo_S788x192_S_d0_1 h_S_) main_v6 main_c_1
  let main_v8 : IVec S_ 1 := andi main_v3 main_v7
  let main_v9 : FVec F S192 .f32 := Host.absf main_arg4
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_v14 : FVec F S192x128 .f32 := Host.absf main_arg5
  let main_cst_4 : FVec F S_ .f32 := constant S_ .f32 0x7F800000#32
  let main_v15 : FVec F S192x128 .f32 := broadcastInDim S192x128 ![] bcast_S_S192x128 main_cst_4
  let main_v16 : IVec S192x128 1 := cmpf .olt main_v14 main_v15
  fn_part1 (F := F) main_arg6 main_arg7 main_arg8 main_arg9 main_arg10 main_v13 main_v16
-- ==== Kernel.lean ====
abbrev S50000x394 : Shape := ⟨2, ![50000, 394]⟩
abbrev S200000 : Shape := ⟨1, ![200000]⟩
abbrev S788x192 : Shape := ⟨2, ![788, 192]⟩
abbrev S192 : Shape := ⟨1, ![192]⟩
abbrev S192x128 : Shape := ⟨2, ![192, 128]⟩
abbrev S128 : Shape := ⟨1, ![128]⟩
abbrev S128x192 : Shape := ⟨2, ![128, 192]⟩
abbrev S192x788 : Shape := ⟨2, ![192, 788]⟩
abbrev S788 : Shape := ⟨1, ![788]⟩
abbrev S_ : Shape := ⟨0, ![]⟩
abbrev S50000 : Shape := ⟨1, ![50000]⟩
abbrev S200000x1 : Shape := ⟨2, ![200000, 1]⟩
abbrev S50000x1 : Shape := ⟨2, ![50000, 1]⟩
abbrev S1x394 : Shape := ⟨2, ![1, 394]⟩
abbrev S200000x394 : Shape := ⟨2, ![200000, 394]⟩
abbrev S1x192 : Shape := ⟨2, ![1, 192]⟩
abbrev S1x128 : Shape := ⟨2, ![1, 128]⟩
abbrev S1x788 : Shape := ⟨2, ![1, 788]⟩
abbrev S50000x788 : Shape := ⟨2, ![50000, 788]⟩
abbrev S50000x128 : Shape := ⟨2, ![50000, 128]⟩
abbrev S1000x394 : Shape := ⟨2, ![1000, 394]⟩
abbrev S1000x788 : Shape := ⟨2, ![1000, 788]⟩
abbrev S1000x128 : Shape := ⟨2, ![1000, 128]⟩
abbrev S1000x192 : Shape := ⟨2, ![1000, 192]⟩

abbrev nBuf : Space → Nat
  | .hbm => 72
  | .vmem => 18
  | .smem => 0
  | _ => 0

abbrev bufTy : (tb : Table) → Fin (tcTables nBuf tb) → BufTy
  | .hbm, ⟨0, _⟩ => ⟨S50000x394, .f32⟩
  | .hbm, ⟨1, _⟩ => ⟨S200000, .i32⟩
  | .hbm, ⟨2, _⟩ => ⟨S200000, .i32⟩
  | .hbm, ⟨3, _⟩ => ⟨S788x192, .f32⟩
  | .hbm, ⟨4, _⟩ => ⟨S192, .f32⟩
  | .hbm, ⟨5, _⟩ => ⟨S192x128, .f32⟩
  | .hbm, ⟨6, _⟩ => ⟨S128, .f32⟩
  | .hbm, ⟨7, _⟩ => ⟨S128x192, .f32⟩
  | .hbm, ⟨8, _⟩ => ⟨S192, .f32⟩
  | .hbm, ⟨9, _⟩ => ⟨S192x788, .f32⟩
  | .hbm, ⟨10, _⟩ => ⟨S788, .f32⟩
  | .hbm, ⟨11, _⟩ => ⟨S_, .f32⟩
  | .hbm, ⟨12, _⟩ => ⟨S200000, .f32⟩
  | .hbm, ⟨13, _⟩ => ⟨S_, .f32⟩
  | .hbm, ⟨14, _⟩ => ⟨S50000, .f32⟩
  | .hbm, ⟨15, _⟩ => ⟨S200000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S1x394, .i32⟩
  | .hbm, ⟨25, _⟩ => ⟨S_, .i32⟩
  | .hbm, ⟨26, _⟩ => ⟨S1x394, .i32⟩
  | .hbm, ⟨27, _⟩ => ⟨S1x394, .i1⟩
  | .hbm, ⟨28, _⟩ => ⟨S1x394, .f32⟩
  | .hbm, ⟨29, _⟩ => ⟨S_, .i32⟩
  | .hbm, ⟨30, _⟩ => ⟨S200000, .i32⟩
  | .hbm, ⟨31, _⟩ => ⟨S200000, .i1⟩
  | .hbm, ⟨32, _⟩ => ⟨S_, .i32⟩
  | .hbm, ⟨33, _⟩ => ⟨S200000, .i32⟩
  | .hbm, ⟨34, _⟩ => ⟨S200000, .i32⟩
  | .hbm, ⟨35, _⟩ => ⟨S200000, .i32⟩
  | .hbm, ⟨36, _⟩ => ⟨S200000x1, .i32⟩
  | .hbm, ⟨37, _⟩ => ⟨S200000x394, .f32⟩
  | .hbm, ⟨38, _⟩ => ⟨S_, .f32⟩
  | .hbm, ⟨39, _⟩ => ⟨S50000x394, .f32⟩
  | .hbm, ⟨40, _⟩ => ⟨S200000x1, .i32⟩
  | .hbm, ⟨41, _⟩ => ⟨S50000x394, .f32⟩
  | .hbm, ⟨42, _⟩ => ⟨S50000x394, .f32⟩
  | .hbm, ⟨43, _⟩ => ⟨S50000x394, .f32⟩
  | .hbm, ⟨44, _⟩ => ⟨S50000x394, .f32⟩
  | .hbm, ⟨45, _⟩ => ⟨S50000x394, .f32⟩
  | .hbm, ⟨46, _⟩ => ⟨S_, .i32⟩
  | .hbm, ⟨47, _⟩ => ⟨S200000, .i32⟩
  | .hbm, ⟨48, _⟩ => ⟨S200000, .i1⟩
  | .hbm, ⟨49, _⟩ => ⟨S_, .i32⟩
  | .hbm, ⟨50, _⟩ => ⟨S200000, .i32⟩
  | .hbm, ⟨51, _⟩ => ⟨S200000, .i32⟩
  | .hbm, ⟨52, _⟩ => ⟨S200000, .i32⟩
  | .hbm, ⟨53, _⟩ => ⟨S200000x1, .i32⟩
  | .hbm, ⟨54, _⟩ => ⟨S200000x394, .f32⟩
  | .hbm, ⟨55, _⟩ => ⟨S_, .f32⟩
  | .hbm, ⟨56, _⟩ => ⟨S50000x394, .f32⟩
  | .hbm, ⟨57, _⟩ => ⟨S200000x1, .i32⟩
  | .hbm, ⟨58, _⟩ => ⟨S50000x394, .f32⟩
  | .hbm, ⟨59, _⟩ => ⟨S50000x394, .f32⟩
  | .hbm, ⟨60, _⟩ => ⟨S50000x394, .f32⟩
  | .hbm, ⟨61, _⟩ => ⟨S788x192, .bf16⟩
  | .hbm, ⟨62, _⟩ => ⟨S192x128, .bf16⟩
  | .hbm, ⟨63, _⟩ => ⟨S128x192, .bf16⟩
  | .hbm, ⟨64, _⟩ => ⟨S192x788, .bf16⟩
  | .hbm, ⟨65, _⟩ => ⟨S1x192, .f32⟩
  | .hbm, ⟨66, _⟩ => ⟨S1x128, .f32⟩
  | .hbm, ⟨67, _⟩ => ⟨S1x192, .f32⟩
  | .hbm, ⟨68, _⟩ => ⟨S1x788, .f32⟩
  | .hbm, ⟨69, _⟩ => ⟨S50000x788, .f32⟩
  | .hbm, ⟨70, _⟩ => ⟨S50000x128, .f32⟩
  | .hbm, ⟨71, _⟩ => ⟨S50000x788, .f32⟩
  | .local _ .vmem, ⟨0, _⟩ => ⟨S1000x394, .f32⟩
  | .local _ .vmem, ⟨1, _⟩ => ⟨S1000x394, .f32⟩
  | .local _ .vmem, ⟨2, _⟩ => ⟨S1000x394, .f32⟩
  | .local _ .vmem, ⟨3, _⟩ => ⟨S1000x394, .f32⟩
  | .local _ .vmem, ⟨4, _⟩ => ⟨S788x192, .bf16⟩
  | .local _ .vmem, ⟨5, _⟩ => ⟨S1x192, .f32⟩
  | .local _ .vmem, ⟨6, _⟩ => ⟨S192x128, .bf16⟩
  | .local _ .vmem, ⟨7, _⟩ => ⟨S1x128, .f32⟩
  | .local _ .vmem, ⟨8, _⟩ => ⟨S128x192, .bf16⟩
  | .local _ .vmem, ⟨9, _⟩ => ⟨S1x192, .f32⟩
  | .local _ .vmem, ⟨10, _⟩ => ⟨S192x788, .bf16⟩
  | .local _ .vmem, ⟨11, _⟩ => ⟨S1x788, .f32⟩
  | .local _ .vmem, ⟨12, _⟩ => ⟨S1000x788, .f32⟩
  | .local _ .vmem, ⟨13, _⟩ => ⟨S1000x788, .f32⟩
  | .local _ .vmem, ⟨14, _⟩ => ⟨S1000x128, .f32⟩
  | .local _ .vmem, ⟨15, _⟩ => ⟨S1000x128, .f32⟩
  | .local _ .vmem, ⟨16, _⟩ => ⟨S1000x788, .f32⟩
  | .local _ .vmem, ⟨17, _⟩ => ⟨S1000x788, .f32⟩
  | _, _ => ⟨S50000x394, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47_0 : Ref sig .tc := ⟨.hbm, 69, rfl⟩
abbrev main_v47_1 : Ref sig .tc := ⟨.hbm, 70, rfl⟩
abbrev main_v47_2 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x394 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x394 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S788x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192x788 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x788 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1000x788 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1000x788 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S200000 : S_.BroadcastsInDim S200000 (![] : Fin 0 → Fin S200000.rank)
  bcast_S_S50000 : S_.BroadcastsInDim S50000 (![] : Fin 0 → Fin S50000.rank)
  bcast_S200000_S200000x1_0 : S200000.BroadcastsInDim S200000x1 (![0] : Fin 1 → Fin S200000x1.rank)
  bcast_S50000_S50000x1_0 : S50000.BroadcastsInDim S50000x1 (![0] : Fin 1 → Fin S50000x1.rank)
  bcast_S_S1x394 : S_.BroadcastsInDim S1x394 (![] : Fin 0 → Fin S1x394.rank)
  bcast_S_S50000x394 : S_.BroadcastsInDim S50000x394 (![] : Fin 0 → Fin S50000x394.rank)
  bcast_S50000x1_S50000x394_0_1 : S50000x1.BroadcastsInDim S50000x394 (![0, 1] : Fin 2 → Fin S50000x394.rank)
  bcast_S1x394_S50000x394_0_1 : S1x394.BroadcastsInDim S50000x394 (![0, 1] : Fin 2 → Fin S50000x394.rank)
  bitsLt_bf16_f32 : FTy.bits .bf16 < FTy.bits .f32
  shapeCasts_S192_S1x192 : S192.ShapeCasts S1x192
  shapeCasts_S128_S1x128 : S128.ShapeCasts S1x128
  shapeCasts_S788_S1x788 : S788.ShapeCasts S1x788
  inb_S1000x394_S1000x394_0_0 : ∀ a, (![0, 0] : Fin 2 → Nat) a + S1000x394.size a ≤ S1000x394.size a
  h_S1000x394 : 0 < S1000x394.numel
  shapeCasts_S1000x394_S1000x394 : S1000x394.ShapeCasts S1000x394
  iota_S1000x394_d1_w32 : S1000x394.Iotas .tc 32 [1]
  concatenates_S1000x394_S1000x394_S1000x788_d1 : Shape.Concatenates [S1000x394, S1000x394] S1000x788 1
  inb_S1000x788_S1000x788_0_0 : ∀ a, (![0, 0] : Fin 2 → Nat) a + S1000x788.size a ≤ S1000x788.size a
  h_S1000x788 : 0 < S1000x788.numel
  inb_S788x192_S788x192_0_0 : ∀ a, (![0, 0] : Fin 2 → Nat) a + S788x192.size a ≤ S788x192.size a
  h_S788x192 : 0 < S788x192.numel
  shapeCasts_S788x192_S788x192 : S788x192.ShapeCasts S788x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S1000x192 : S1x192.Broadcasts S1000x192
  inb_S192x128_S192x128_0_0 : ∀ a, (![0, 0] : Fin 2 → Nat) a + S192x128.size a ≤ S192x128.size a
  h_S192x128 : 0 < S192x128.numel
  shapeCasts_S192x128_S192x128 : S192x128.ShapeCasts S192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  inb_S128x192_S128x192_0_0 : ∀ a, (![0, 0] : Fin 2 → Nat) a + S128x192.size a ≤ S128x192.size a
  h_S128x192 : 0 < S128x192.numel
  shapeCasts_S128x192_S128x192 : S128x192.ShapeCasts S128x192
  inb_S192x788_S192x788_0_0 : ∀ a, (![0, 0] : Fin 2 → Nat) a + S192x788.size a ≤ S192x788.size a
  h_S192x788 : 0 < S192x788.numel
  shapeCasts_S192x788_S192x788 : S192x788.ShapeCasts S192x788
  inb_S1x788_S1x788_0_0 : ∀ a, (![0, 0] : Fin 2 → Nat) a + S1x788.size a ≤ S1x788.size a
  h_S1x788 : 0 < S1x788.numel
  shapeCasts_S1x788_S1x788 : S1x788.ShapeCasts S1x788
  broadcasts_S1x788_S1000x788 : S1x788.Broadcasts S1000x788
  scatter_S50000_S200000x1_S200000_n_0_0_1_wf : ScatterDims.WF S50000 S200000x1 S200000 [] [0] [0] 1
  gather_S50000x394_S200000x1_S200000x394_1_0_n_n_0_1_1394_wf : GatherDims.WF S50000x394 S200000x1 S200000x394 [1] [0] [] [0] [] 1 ![1, 394]
  scatter_S50000x394_S200000x1_S200000x394_1_0_0_1_wf : ScatterDims.WF S50000x394 S200000x1 S200000x394 [1] [0] [0] 1
  dot_S1000x788_S788x192_S1000x192_1_0_0_1_n_n_wf : DotDims.WF S1000x788 S788x192 S1000x192 [1] [0] [0] [1] [] []
  dot_S1000x192_S192x128_S1000x128_1_0_0_1_n_n_wf : DotDims.WF S1000x192 S192x128 S1000x128 [1] [0] [0] [1] [] []
  dot_S1000x128_S128x192_S1000x192_1_0_0_1_n_n_wf : DotDims.WF S1000x128 S128x192 S1000x192 [1] [0] [0] [1] [] []
  dot_S1000x192_S192x788_S1000x788_1_0_0_1_n_n_wf : DotDims.WF S1000x192 S192x788 S1000x788 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x394.size a ≤ S50000x394.size a
  hwx0_0 : ∀ i : grid0.Coords, EltTy.bits .f32 = 32 ∨ (Rect.block (s := S50000x394) S1000x394.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x394.size a ≤ S50000x394.size a
  hwx0_1 : ∀ i : grid0.Coords, EltTy.bits .f32 = 32 ∨ (Rect.block (s := S50000x394) S1000x394.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S788x192.size a ≤ S788x192.size a
  hwx0_2 : ∀ i : grid0.Coords, EltTy.bits .bf16 = 32 ∨ (Rect.block (s := S788x192) S788x192.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x192.size a ≤ S1x192.size a
  hwx0_3 : ∀ i : grid0.Coords, EltTy.bits .f32 = 32 ∨ (Rect.block (s := S1x192) S1x192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192x128.size a ≤ S192x128.size a
  hwx0_4 : ∀ i : grid0.Coords, EltTy.bits .bf16 = 32 ∨ (Rect.block (s := S192x128) S192x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x192.size a ≤ S128x192.size a
  hwx0_6 : ∀ i : grid0.Coords, EltTy.bits .bf16 = 32 ∨ (Rect.block (s := S128x192) S128x192.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x192.size a ≤ S1x192.size a
  hwx0_7 : ∀ i : grid0.Coords, EltTy.bits .f32 = 32 ∨ (Rect.block (s := S1x192) S1x192.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S192x788.size a ≤ S192x788.size a
  hwx0_8 : ∀ i : grid0.Coords, EltTy.bits .bf16 = 32 ∨ (Rect.block (s := S192x788) S192x788.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x788.size a ≤ S1x788.size a
  hwx0_9 : ∀ i : grid0.Coords, EltTy.bits .f32 = 32 ∨ (Rect.block (s := S1x788) S1x788.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x788.size a ≤ S50000x788.size a
  hwx0_10 : ∀ i : grid0.Coords, EltTy.bits .f32 = 32 ∨ (Rect.block (s := S50000x788) S1000x788.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x128.size a ≤ S50000x128.size a
  hwx0_11 : ∀ i : grid0.Coords, EltTy.bits .f32 = 32 ∨ (Rect.block (s := S50000x128) S1000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x788.size a ≤ S50000x788.size a
  hwx0_12 : ∀ i : grid0.Coords, EltTy.bits .f32 = 32 ∨ (Rect.block (s := S50000x788) S1000x788.size (cc0_transform_12 i) (hinb0_12 i)).WholeWords (EltTy.packing .f32)

variable [Facts₀]

def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def gather_S50000x394_S200000x1_S200000x394_1_0_n_n_0_1_1394 : GatherDims S50000x394 S200000x1 S200000x394 where
  offsetDims := [1]
  collapsedSliceDims := [0]
  operandBatchingDims := []
  startIndicesBatchingDims := []
  startIndexMap := [0]
  indexVectorDim := 1
  sliceSizes := ![1, 394]
  wf := gather_S50000x394_S200000x1_S200000x394_1_0_n_n_0_1_1394_wf
def scatter_S50000x394_S200000x1_S200000x394_1_0_0_1 : ScatterDims S50000x394 S200000x1 S200000x394 where
  updateWindowDims := [1]
  insertedWindowDims := [0]
  scatterDimsToOperandDims := [0]
  indexVectorDim := 1
  wf := scatter_S50000x394_S200000x1_S200000x394_1_0_0_1_wf
def dot_S1000x788_S788x192_S1000x192_1_0_0_1_n_n : DotDims S1000x788 S788x192 S1000x192 where
  lhsContracting := [1]
  rhsContracting := [0]
  lhsNonContracting := [0]
  rhsNonContracting := [1]
  lhsBatch := []
  rhsBatch := []
  wf := dot_S1000x788_S788x192_S1000x192_1_0_0_1_n_n_wf
def dot_S1000x192_S192x128_S1000x128_1_0_0_1_n_n : DotDims S1000x192 S192x128 S1000x128 where
  lhsContracting := [1]
  rhsContracting := [0]
  lhsNonContracting := [0]
  rhsNonContracting := [1]
  lhsBatch := []
  rhsBatch := []
  wf := dot_S1000x192_S192x128_S1000x128_1_0_0_1_n_n_wf
def dot_S1000x128_S128x192_S1000x192_1_0_0_1_n_n : DotDims S1000x128 S128x192 S1000x192 where
  lhsContracting := [1]
  rhsContracting := [0]
  lhsNonContracting := [0]
  rhsNonContracting := [1]
  lhsBatch := []
  rhsBatch := []
  wf := dot_S1000x128_S128x192_S1000x192_1_0_0_1_n_n_wf
def dot_S1000x192_S192x788_S1000x788_1_0_0_1_n_n : DotDims S1000x192 S192x788 S1000x788 where
  lhsContracting := [1]
  rhsContracting := [0]
  lhsNonContracting := [0]
  rhsNonContracting := [1]
  lhsBatch := []
  rhsBatch := []
  wf := dot_S1000x192_S192x788_S1000x788_1_0_0_1_n_n_wf

abbrev win0_0 : Pipeline.Window sig grid0 :=
  Pipeline.Window.ofSpec (Memref.whole main_arg0) S1000x394.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S1000x394.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S788x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S192x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S128x192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S1x192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S192x788.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v46) S1x788.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v47_0) S1000x788.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v47_1) S1000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v47_2) S1000x788.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S50000x394 : Shape := ⟨2, ![50000, 394]⟩
abbrev S200000 : Shape := ⟨1, ![200000]⟩
abbrev S788x192 : Shape := ⟨2, ![788, 192]⟩
abbrev S192 : Shape := ⟨1, ![192]⟩
abbrev S192x128 : Shape := ⟨2, ![192, 128]⟩
abbrev S128 : Shape := ⟨1, ![128]⟩
abbrev S128x192 : Shape := ⟨2, ![128, 192]⟩
abbrev S192x788 : Shape := ⟨2, ![192, 788]⟩
abbrev S788 : Shape := ⟨1, ![788]⟩
abbrev S_ : Shape := ⟨0, ![]⟩
abbrev S50000 : Shape := ⟨1, ![50000]⟩
abbrev S200000x1 : Shape := ⟨2, ![200000, 1]⟩
abbrev S50000x1 : Shape := ⟨2, ![50000, 1]⟩
abbrev S200000x394 : Shape := ⟨2, ![200000, 394]⟩
abbrev S1 : Shape := ⟨1, ![1]⟩
abbrev S50000x788 : Shape := ⟨2, ![50000, 788]⟩
abbrev S50000x192 : Shape := ⟨2, ![50000, 192]⟩
abbrev S1x192 : Shape := ⟨2, ![1, 192]⟩
abbrev S50000x128 : Shape := ⟨2, ![50000, 128]⟩
abbrev S1x128 : Shape := ⟨2, ![1, 128]⟩
abbrev S1x788 : Shape := ⟨2, ![1, 788]⟩

abbrev nBuf : Space → Nat
  | .hbm => 97
  | .vmem => 0
  | .smem => 0
  | _ => 0

abbrev bufTy : (tb : Table) → Fin (tcTables nBuf tb) → BufTy
  | .hbm, ⟨0, _⟩ => ⟨S50000x394, .f32⟩
  | .hbm, ⟨1, _⟩ => ⟨S200000, .i32⟩
  | .hbm, ⟨2, _⟩ => ⟨S200000, .i32⟩
  | .hbm, ⟨3, _⟩ => ⟨S788x192, .f32⟩
  | .hbm, ⟨4, _⟩ => ⟨S192, .f32⟩
  | .hbm, ⟨5, _⟩ => ⟨S192x128, .f32⟩
  | .hbm, ⟨6, _⟩ => ⟨S128, .f32⟩
  | .hbm, ⟨7, _⟩ => ⟨S128x192, .f32⟩
  | .hbm, ⟨8, _⟩ => ⟨S192, .f32⟩
  | .hbm, ⟨9, _⟩ => ⟨S192x788, .f32⟩
  | .hbm, ⟨10, _⟩ => ⟨S788, .f32⟩
  | .hbm, ⟨11, _⟩ => ⟨S_, .f32⟩
  | .hbm, ⟨12, _⟩ => ⟨S200000, .f32⟩
  | .hbm, ⟨13, _⟩ => ⟨S_, .f32⟩
  | .hbm, ⟨14, _⟩ => ⟨S50000, .f32⟩
  | .hbm, ⟨15, _⟩ => ⟨S200000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000x394, .f32⟩
  | .hbm, ⟨33, _⟩ => ⟨S_, .f32⟩
  | .hbm, ⟨34, _⟩ => ⟨S50000x394, .f32⟩
  | .hbm, ⟨35, _⟩ => ⟨S200000x1, .i32⟩
  | .hbm, ⟨36, _⟩ => ⟨S50000x394, .f32⟩
  | .hbm, ⟨37, _⟩ => ⟨S50000x394, .f32⟩
  | .hbm, ⟨38, _⟩ => ⟨S50000x394, .f32⟩
  | .hbm, ⟨39, _⟩ => ⟨S_, .i32⟩
  | .hbm, ⟨40, _⟩ => ⟨S1, .i32⟩
  | .hbm, ⟨41, _⟩ => ⟨S_, .f32⟩
  | .hbm, ⟨42, _⟩ => ⟨S50000, .f32⟩
  | .hbm, ⟨43, _⟩ => ⟨S50000x394, .f32⟩
  | .hbm, ⟨44, _⟩ => ⟨S_, .i32⟩
  | .hbm, ⟨45, _⟩ => ⟨S200000, .i32⟩
  | .hbm, ⟨46, _⟩ => ⟨S200000, .i1⟩
  | .hbm, ⟨47, _⟩ => ⟨S_, .i32⟩
  | .hbm, ⟨48, _⟩ => ⟨S200000, .i32⟩
  | .hbm, ⟨49, _⟩ => ⟨S200000, .i32⟩
  | .hbm, ⟨50, _⟩ => ⟨S200000, .i32⟩
  | .hbm, ⟨51, _⟩ => ⟨S200000x1, .i32⟩
  | .hbm, ⟨52, _⟩ => ⟨S200000x394, .f32⟩
  | .hbm, ⟨53, _⟩ => ⟨S_, .f32⟩
  | .hbm, ⟨54, _⟩ => ⟨S50000x394, .f32⟩
  | .hbm, ⟨55, _⟩ => ⟨S200000x1, .i32⟩
  | .hbm, ⟨56, _⟩ => ⟨S50000x394, .f32⟩
  | .hbm, ⟨57, _⟩ => ⟨S50000x394, .f32⟩
  | .hbm, ⟨58, _⟩ => ⟨S50000x394, .f32⟩
  | .hbm, ⟨59, _⟩ => ⟨S_, .i32⟩
  | .hbm, ⟨60, _⟩ => ⟨S1, .i32⟩
  | .hbm, ⟨61, _⟩ => ⟨S_, .f32⟩
  | .hbm, ⟨62, _⟩ => ⟨S50000, .f32⟩
  | .hbm, ⟨63, _⟩ => ⟨S50000x394, .f32⟩
  | .hbm, ⟨64, _⟩ => ⟨S50000x788, .f32⟩
  | .hbm, ⟨65, _⟩ => ⟨S_, .i32⟩
  | .hbm, ⟨66, _⟩ => ⟨S1, .i32⟩
  | .hbm, ⟨67, _⟩ => ⟨S_, .f32⟩
  | .hbm, ⟨68, _⟩ => ⟨S50000, .f32⟩
  | .hbm, ⟨69, _⟩ => ⟨S50000x788, .f32⟩
  | .hbm, ⟨70, _⟩ => ⟨S_, .i32⟩
  | .hbm, ⟨71, _⟩ => ⟨S1, .i32⟩
  | .hbm, ⟨72, _⟩ => ⟨S_, .f32⟩
  | .hbm, ⟨73, _⟩ => ⟨S50000, .f32⟩
  | .hbm, ⟨74, _⟩ => ⟨S50000x788, .f32⟩
  | .hbm, ⟨75, _⟩ => ⟨S50000x192, .f32⟩
  | .hbm, ⟨76, _⟩ => ⟨S1x192, .f32⟩
  | .hbm, ⟨77, _⟩ => ⟨S50000x192, .f32⟩
  | .hbm, ⟨78, _⟩ => ⟨S50000x192, .f32⟩
  | .hbm, ⟨79, _⟩ => ⟨S_, .f32⟩
  | .hbm, ⟨80, _⟩ => ⟨S50000x192, .f32⟩
  | .hbm, ⟨81, _⟩ => ⟨S50000x192, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S50000x192, .f32⟩
  | .hbm, ⟨87, _⟩ => ⟨S1x192, .f32⟩
  | .hbm, ⟨88, _⟩ => ⟨S50000x192, .f32⟩
  | .hbm, ⟨89, _⟩ => ⟨S50000x192, .f32⟩
  | .hbm, ⟨90, _⟩ => ⟨S_, .f32⟩
  | .hbm, ⟨91, _⟩ => ⟨S50000x192, .f32⟩
  | .hbm, ⟨92, _⟩ => ⟨S50000x192, .f32⟩
  | .hbm, ⟨93, _⟩ => ⟨S50000x788, .f32⟩
  | .hbm, ⟨94, _⟩ => ⟨S1x788, .f32⟩
  | .hbm, ⟨95, _⟩ => ⟨S50000x788, .f32⟩
  | .hbm, ⟨96, _⟩ => ⟨S50000x788, .f32⟩
  | _, _ => ⟨S50000x394, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_c_8 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_cst_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_12 : Ref sig .tc := ⟨.hbm, 65, rfl⟩
abbrev main_v40 : Ref sig .tc := ⟨.hbm, 66, rfl⟩
abbrev main_cst_13 : Ref sig .tc := ⟨.hbm, 67, rfl⟩
abbrev main_v41 : Ref sig .tc := ⟨.hbm, 68, rfl⟩
abbrev main_v42 : Ref sig .tc := ⟨.hbm, 69, rfl⟩
abbrev main_c_14 : Ref sig .tc := ⟨.hbm, 70, rfl⟩
abbrev main_v43 : Ref sig .tc := ⟨.hbm, 71, rfl⟩
abbrev main_cst_15 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call0_cst : Ref sig .tc := ⟨.hbm, 79, rfl⟩
abbrev main_call0_v0 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call1_cst : Ref sig .tc := ⟨.hbm, 90, rfl⟩
abbrev main_call1_v0 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S_S50000 : S_.BroadcastsInDim S50000 (![] : Fin 0 → Fin S50000.rank)
  bcast_S200000_S200000x1_0 : S200000.BroadcastsInDim S200000x1 (![0] : Fin 1 → Fin S200000x1.rank)
  bcast_S50000_S50000x1_0 : S50000.BroadcastsInDim S50000x1 (![0] : Fin 1 → Fin S50000x1.rank)
  bcast_S_S50000x394 : S_.BroadcastsInDim S50000x394 (![] : Fin 0 → Fin S50000x394.rank)
  bcast_S50000x1_S50000x394_0_1 : S50000x1.BroadcastsInDim S50000x394 (![0, 1] : Fin 2 → Fin S50000x394.rank)
  bcast_S_S1 : S_.BroadcastsInDim S1 (![] : Fin 0 → Fin S1.rank)
  concatenates_S50000x394_S50000x394_S50000x788_d1 : Shape.Concatenates [S50000x394, S50000x394] S50000x788 1
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  bcast_S_S50000x192 : S_.BroadcastsInDim S50000x192 (![] : Fin 0 → Fin S50000x192.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S788_S1x788_1 : S788.BroadcastsInDim S1x788 (![1] : Fin 1 → Fin S1x788.rank)
  bcast_S1x788_S50000x788_0_1 : S1x788.BroadcastsInDim S50000x788 (![0, 1] : Fin 2 → Fin S50000x788.rank)
  scatter_S50000_S200000x1_S200000_n_0_0_1_wf : ScatterDims.WF S50000 S200000x1 S200000 [] [0] [0] 1
  gather_S50000x394_S200000x1_S200000x394_1_0_n_n_0_1_1394_wf : GatherDims.WF S50000x394 S200000x1 S200000x394 [1] [0] [] [0] [] 1 ![1, 394]
  scatter_S50000x394_S200000x1_S200000x394_1_0_0_1_wf : ScatterDims.WF S50000x394 S200000x1 S200000x394 [1] [0] [0] 1
  scatter_S50000x394_S1_S50000_0_1_1_0_wf : ScatterDims.WF S50000x394 S1 S50000 [0] [1] [1] 0
  scatter_S50000x788_S1_S50000_0_1_1_0_wf : ScatterDims.WF S50000x788 S1 S50000 [0] [1] [1] 0
  dot_S50000x788_S788x192_S50000x192_1_0_0_1_n_n_wf : DotDims.WF S50000x788 S788x192 S50000x192 [1] [0] [0] [1] [] []
  dot_S50000x192_S192x128_S50000x128_1_0_0_1_n_n_wf : DotDims.WF S50000x192 S192x128 S50000x128 [1] [0] [0] [1] [] []
  dot_S50000x128_S128x192_S50000x192_1_0_0_1_n_n_wf : DotDims.WF S50000x128 S128x192 S50000x192 [1] [0] [0] [1] [] []
  dot_S50000x192_S192x788_S50000x788_1_0_0_1_n_n_wf : DotDims.WF S50000x192 S192x788 S50000x788 [1] [0] [0] [1] [] []

variable [Facts₀]

def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def gather_S50000x394_S200000x1_S200000x394_1_0_n_n_0_1_1394 : GatherDims S50000x394 S200000x1 S200000x394 where
  offsetDims := [1]
  collapsedSliceDims := [0]
  operandBatchingDims := []
  startIndicesBatchingDims := []
  startIndexMap := [0]
  indexVectorDim := 1
  sliceSizes := ![1, 394]
  wf := gather_S50000x394_S200000x1_S200000x394_1_0_n_n_0_1_1394_wf
def scatter_S50000x394_S200000x1_S200000x394_1_0_0_1 : ScatterDims S50000x394 S200000x1 S200000x394 where
  updateWindowDims := [1]
  insertedWindowDims := [0]
  scatterDimsToOperandDims := [0]
  indexVectorDim := 1
  wf := scatter_S50000x394_S200000x1_S200000x394_1_0_0_1_wf
def scatter_S50000x394_S1_S50000_0_1_1_0 : ScatterDims S50000x394 S1 S50000 where
  updateWindowDims := [0]
  insertedWindowDims := [1]
  scatterDimsToOperandDims := [1]
  indexVectorDim := 0
  wf := scatter_S50000x394_S1_S50000_0_1_1_0_wf
def scatter_S50000x788_S1_S50000_0_1_1_0 : ScatterDims S50000x788 S1 S50000 where
  updateWindowDims := [0]
  insertedWindowDims := [1]
  scatterDimsToOperandDims := [1]
  indexVectorDim := 0
  wf := scatter_S50000x788_S1_S50000_0_1_1_0_wf
def dot_S50000x788_S788x192_S50000x192_1_0_0_1_n_n : DotDims S50000x788 S788x192 S50000x192 where
  lhsContracting := [1]
  rhsContracting := [0]
  lhsNonContracting := [0]
  rhsNonContracting := [1]
  lhsBatch := []
  rhsBatch := []
  wf := dot_S50000x788_S788x192_S50000x192_1_0_0_1_n_n_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def dot_S50000x128_S128x192_S50000x192_1_0_0_1_n_n : DotDims S50000x128 S128x192 S50000x192 where
  lhsContracting := [1]
  rhsContracting := [0]
  lhsNonContracting := [0]
  rhsNonContracting := [1]
  lhsBatch := []
  rhsBatch := []
  wf := dot_S50000x128_S128x192_S50000x192_1_0_0_1_n_n_wf
def dot_S50000x192_S192x788_S50000x788_1_0_0_1_n_n : DotDims S50000x192 S192x788 S50000x788 where
  lhsContracting := [1]
  rhsContracting := [0]
  lhsNonContracting := [0]
  rhsNonContracting := [1]
  lhsBatch := []
  rhsBatch := []
  wf := dot_S50000x192_S192x788_S50000x788_1_0_0_1_n_n_wf

class Facts : Prop extends Facts₀ where

variable [Facts]
-- ==== Proof.Spec.lean ====
/-
  The autoencoder of a node table, row by row, as plain sums over the extended reals.

  A node's embedding row has 788 entries: its own 394 features with feature 0 replaced by zero, followed by its 394
  aggregated features. The autoencoder maps the embedding matrix X through four affine layers
      x1 = max (X · W1 + b1) 0,   enc = x1 · W3 + b3,   x2 = max (enc · Wd1 + bd1) 0,   dec = x2 · Wd3 + bd3,
  each product the exact sum over the contracted coordinate and each bias added to every row. Every entry of a row of
  `enc` and of `dec` depends on that row of X only, so a table processed in blocks of rows gives, block by block, what the
  whole table gives at once: the row-locality lemmas below say this for any map `e` of block rows to table rows.
  Matrices are written curried, `Fin M → Fin N → EReal`; `cur`, `cur1` and `curRow` read an array that way.
-/
import Idealize.ShloMosaic.PureOps.Ideal
import Idealize.ShloMosaic.Lib.ValueIdx

noncomputable section

namespace Cert.Spec

open Idealize.ShloMosaic Idealize.ShloMosaic.ValueIdx

/-- An [M, N] array read by its two coordinates. -/
def cur {M N : Nat} (A : (⟨2, ![M, N]⟩ : Shape).Idx → EReal) : Fin M → Fin N → EReal := fun r c => A (ix2 r c)

/-- An [N] array read by its coordinate. -/
def cur1 {N : Nat} (b : (⟨1, ![N]⟩ : Shape).Idx → EReal) : Fin N → EReal := fun a => b (ix1 a)

/-- A [1, N] array (one row) read by its column. -/
def curRow {N : Nat} (b : (⟨2, ![1, N]⟩ : Shape).Idx → EReal) : Fin N → EReal := fun a => b (ix2 (0 : Fin 1) a)

/-- One affine layer at entry (r, a): row r of X against column a of W, plus the bias of column a. -/
def lin {M K N : Nat} (X : Fin M → Fin K → EReal) (W : Fin K → Fin N → EReal) (b : Fin N → EReal) (r : Fin M) (a : Fin N) :
    EReal :=
  (∑ k : Fin K, X r k * W k a) + b a

/-- The encoder's output from the embedding matrix X: a rectified affine layer, then an affine layer. -/
def encOf {M : Nat} (W1 : Fin 788 → Fin 192 → EReal) (b1 : Fin 192 → EReal) (W3 : Fin 192 → Fin 128 → EReal)
    (b3 : Fin 128 → EReal) (X : Fin M → Fin 788 → EReal) (r : Fin M) (a : Fin 128) : EReal :=
  lin (fun r a => max (lin X W1 b1 r a) 0) W3 b3 r a

/-- The decoder's output from the encoder's output E: a rectified affine layer, then an affine layer. -/
def decOf {M : Nat} (Wd1 : Fin 128 → Fin 192 → EReal) (bd1 : Fin 192 → EReal) (Wd3 : Fin 192 → Fin 788 → EReal)
    (bd3 : Fin 788 → EReal) (E : Fin M → Fin 128 → EReal) (r : Fin M) (j : Fin 788) : EReal :=
  lin (fun r a => max (lin E Wd1 bd1 r a) 0) Wd3 bd3 r j

/-- The embedding row of node r: its features with feature 0 replaced by zero, then its aggregated features. -/
def embAt {M : Nat} (feat agg : Fin M → Fin 394 → EReal) (r : Fin M) (j : Fin 788) : EReal :=
  if h : j.val < 394 then (if j.val = 0 then 0 else feat r ⟨j.val, h⟩) else agg r ⟨j.val - 394, by omega⟩

/-- Row r of an affine layer over a block of rows taken through `e` is row `e r` of the layer over the whole table. -/
theorem lin_rows {M M' K N : Nat} (e : Fin M → Fin M') (X : Fin M' → Fin K → EReal) (W : Fin K → Fin N → EReal)
    (b : Fin N → EReal) (r : Fin M) (a : Fin N) : lin (fun p => X (e p)) W b r a = lin X W b (e r) a := rfl

theorem encOf_rows {M M' : Nat} (e : Fin M → Fin M') (W1 : Fin 788 → Fin 192 → EReal) (b1 : Fin 192 → EReal)
    (W3 : Fin 192 → Fin 128 → EReal) (b3 : Fin 128 → EReal) (X : Fin M' → Fin 788 → EReal) (r : Fin M) (a : Fin 128) :
    encOf W1 b1 W3 b3 (fun p => X (e p)) r a = encOf W1 b1 W3 b3 X (e r) a := rfl

theorem decOf_rows {M M' : Nat} (e : Fin M → Fin M') (Wd1 : Fin 128 → Fin 192 → EReal) (bd1 : Fin 192 → EReal)
    (Wd3 : Fin 192 → Fin 788 → EReal) (bd3 : Fin 788 → EReal) (E : Fin M' → Fin 128 → EReal) (r : Fin M) (j : Fin 788) :
    decOf Wd1 bd1 Wd3 bd3 (fun p => E (e p)) r j = decOf Wd1 bd1 Wd3 bd3 E (e r) j := rfl

theorem embAt_rows {M M' : Nat} (e : Fin M → Fin M') (feat agg : Fin M' → Fin 394 → EReal) (r : Fin M) (j : Fin 788) :
    embAt (fun p => feat (e p)) (fun p => agg (e p)) r j = embAt feat agg (e r) j := rfl

end Cert.Spec

end
-- ==== Proof.LibColumnOps.lean ====
/-
  Scatters and gathers along the rows of a table, read column by column.

  Three facts about the host's indexed operations, none of which looks at the index values:
  * a scatter that OVERWRITES (its body returns the update) with updates that all hold one value v leaves, at every
    element, v if some update lands there and the operand's element otherwise — whatever the order of the updates;
  * a scatter of whole rows ([E, F] updates into an [N, F] table, one row index per update) lands the update's column c
    in the table's column c, and a gather of whole rows ([E, F] from an [N, F] table) reads the result's column c from
    the table's column c;
  * so an accumulating row scatter of gathered rows keeps a column of zeros: if column c of the gathered table and of
    the operand is zero, column c of the result is a sum of zeros.
  And the one-column overwrite ([N] updates into column k of an [N, F] table, k a literal inside the table) is read off:
  the update at row n lands at (n, k).
-/
import Idealize.ShloMosaic.PureOps.Ideal
import Idealize.ShloMosaic.Lib.ValueIdx

noncomputable section

namespace Cert.Lib

open Idealize.ShloMosaic Idealize.ShloMosaic.ValueIdx

open Classical in
/-- An overwriting scatter whose updates all hold `v`: an element some update lands on holds `v`, every other element
    is the operand's. -/
theorem scatter_set_const_apply {α : Type} {s si u : Shape} {w : Nat} (d : ScatterDims s si u) (x : s.Idx → α)
    (idx : IVec si w) (upd : u.Idx → α) (v : α) (hu : ∀ j, upd j = v) (i : s.Idx) :
    Host.scatter d (fun _ b => b) x idx upd i = if ∃ j : u.Idx, d.resultIdx? j idx = some i then v else x i := by
  unfold Host.scatter
  have key : ∀ (L : List (Fin u.numel)) (x : s.Idx → α),
      (L.foldl (fun r n =>
          match d.resultIdx? (u.rowMajor.symm n) idx with
          | some i => fun i' => if i' = i then (fun _ b => b) (r i) (upd (u.rowMajor.symm n)) else r i'
          | none => r) x) i
        = if ∃ n ∈ L, d.resultIdx? (u.rowMajor.symm n) idx = some i then v else x i := by
    intro L
    induction L with
    | nil => intro x; simp
    | cons n L ih =>
      intro x
      rw [List.foldl_cons, ih]
      by_cases hL : ∃ n' ∈ L, d.resultIdx? (u.rowMajor.symm n') idx = some i
      · obtain ⟨n', hn', h⟩ := hL
        rw [if_pos ⟨n', hn', h⟩, if_pos ⟨n', List.mem_cons_of_mem _ hn', h⟩]
      · rw [if_neg hL]
        cases hn : d.resultIdx? (u.rowMajor.symm n) idx with
        | none =>
          dsimp only
          rw [if_neg]
          rintro ⟨n', hn', h⟩
          rcases List.mem_cons.1 hn' with rfl | hm
          · rw [hn] at h; cases h
          · exact hL ⟨n', hm, h⟩
        | some i0 =>
          dsimp only
          by_cases hi : i = i0
          · subst hi
            rw [if_pos rfl, hu, if_pos ⟨n, List.mem_cons_self, hn⟩]
          · rw [if_neg hi, if_neg]
            rintro ⟨n', hn', h⟩
            rcases List.mem_cons.1 hn' with rfl | hm
            · rw [hn] at h; exact hi (Option.some.inj h).symm
            · exact hL ⟨n', hm, h⟩
  refine (key (List.finRange u.numel) x).trans ?_
  exact if_congr ⟨fun ⟨n, _, h⟩ => ⟨_, h⟩,
    fun ⟨j, h⟩ => ⟨u.rowMajor j, List.mem_finRange _, by rw [Equiv.symm_apply_apply]; exact h⟩⟩ rfl rfl

/-- A scatter of whole rows — [E, F] updates into an [N, F] table, one row index per update — lands an update's
    element in the column it came from. -/
theorem rowScatter_col {N F E w : Nat} (d : ScatterDims ⟨2, ![N, F]⟩ ⟨2, ![E, 1]⟩ ⟨2, ![E, F]⟩)
    (h1 : d.updateWindowDims = [1]) (h2 : d.insertedWindowDims = [0]) (h3 : d.scatterDimsToOperandDims = [0])
    (idx : IVec ⟨2, ![E, 1]⟩ w) (j : (⟨2, ![E, F]⟩ : Shape).Idx) (i : (⟨2, ![N, F]⟩ : Shape).Idx)
    (h : d.resultIdx? j idx = some i) : (i 1).val = (j 1).val := by
  obtain ⟨uwd, iwd, sdo, ivd, wf⟩ := d
  simp only at h1 h2 h3
  subst h1 h2 h3
  unfold ScatterDims.resultIdx? at h
  split at h
  · cases h
    have hs : ScatterDims.start (⟨[1], [0], [0], ivd, wf⟩ : ScatterDims ⟨2, ![N, F]⟩ ⟨2, ![E, 1]⟩ ⟨2, ![E, F]⟩) j idx 1 = 0 := by
      unfold ScatterDims.start; rw [dif_neg (by simp)]
    have hw : ScatterDims.window (⟨[1], [0], [0], ivd, wf⟩ : ScatterDims ⟨2, ![N, F]⟩ ⟨2, ![E, 1]⟩ ⟨2, ![E, F]⟩) j 1 = (j 1).val := by
      unfold ScatterDims.window
      rw [dif_pos (by simp [ScatterDims.sKept, Shape.kept, List.finRange])]
      rfl
    show (ScatterDims.start (⟨[1], [0], [0], ivd, wf⟩ : ScatterDims ⟨2, ![N, F]⟩ ⟨2, ![E, 1]⟩ ⟨2, ![E, F]⟩) j idx 1 + ScatterDims.window (⟨[1], [0], [0], ivd, wf⟩ : ScatterDims ⟨2, ![N, F]⟩ ⟨2, ![E, 1]⟩ ⟨2, ![E, F]⟩) j 1).toNat = _
    rw [hs, hw]; simp
  · cases h

/-- A gather of whole rows — [E, F] rows out of an [N, F] table, one row index per result row — reads a result element
    from the column it sits in. -/
theorem rowGather_col {N F E w : Nat} (g : GatherDims ⟨2, ![N, F]⟩ ⟨2, ![E, 1]⟩ ⟨2, ![E, F]⟩)
    (h1 : g.offsetDims = [1]) (h2 : g.collapsedSliceDims = [0]) (h3 : g.operandBatchingDims = [])
    (h4 : g.startIndexMap = [0])
    (idx : IVec ⟨2, ![E, 1]⟩ w) (j : (⟨2, ![E, F]⟩ : Shape).Idx) : (g.operandIdx j idx 1).val = (j 1).val := by
  obtain ⟨od, cd, ob, sb, sim, ivd, ss, wf⟩ := g
  simp only at h1 h2 h3 h4
  subst h1 h2 h3 h4
  show GatherDims.start (⟨[1], [0], [], sb, [0], ivd, ss, wf⟩ : GatherDims ⟨2, ![N, F]⟩ ⟨2, ![E, 1]⟩ ⟨2, ![E, F]⟩) j idx 1 + GatherDims.batchCoord (⟨[1], [0], [], sb, [0], ivd, ss, wf⟩ : GatherDims ⟨2, ![N, F]⟩ ⟨2, ![E, 1]⟩ ⟨2, ![E, F]⟩) j 1 + GatherDims.offCoord (⟨[1], [0], [], sb, [0], ivd, ss, wf⟩ : GatherDims ⟨2, ![N, F]⟩ ⟨2, ![E, 1]⟩ ⟨2, ![E, F]⟩) j 1 = _
  have hs : GatherDims.start (⟨[1], [0], [], sb, [0], ivd, ss, wf⟩ : GatherDims ⟨2, ![N, F]⟩ ⟨2, ![E, 1]⟩ ⟨2, ![E, F]⟩) j idx 1 = 0 := by
    unfold GatherDims.start; rw [dif_neg (by simp)]
  have hb : GatherDims.batchCoord (⟨[1], [0], [], sb, [0], ivd, ss, wf⟩ : GatherDims ⟨2, ![N, F]⟩ ⟨2, ![E, 1]⟩ ⟨2, ![E, F]⟩) j 1 = 0 :=
    GatherDims.batchCoord_eq_zero _ _ _ (by simp)
  have ho : GatherDims.offCoord (⟨[1], [0], [], sb, [0], ivd, ss, wf⟩ : GatherDims ⟨2, ![N, F]⟩ ⟨2, ![E, 1]⟩ ⟨2, ![E, F]⟩) j 1 = (j 1).val := by
    unfold GatherDims.offCoord
    rw [dif_pos (by simp [GatherDims.sKept, Shape.kept, List.finRange])]
    rfl
  rw [hs, hb, ho]; simp

/-- An accumulating scatter of gathered rows keeps a column of zeros: when column `c` of the operand and of the table
    the rows are gathered from is zero, so is column `c` of the result — each of its elements is the operand's zero plus
    a sum of elements of the table's column `c`. -/
theorem scatterAdd_gather_col_zero {N F E w w' : Nat} (d : ScatterDims ⟨2, ![N, F]⟩ ⟨2, ![E, 1]⟩ ⟨2, ![E, F]⟩)
    (g : GatherDims ⟨2, ![N, F]⟩ ⟨2, ![E, 1]⟩ ⟨2, ![E, F]⟩)
    (hd1 : d.updateWindowDims = [1]) (hd2 : d.insertedWindowDims = [0]) (hd3 : d.scatterDimsToOperandDims = [0])
    (hg1 : g.offsetDims = [1]) (hg2 : g.collapsedSliceDims = [0]) (hg3 : g.operandBatchingDims = [])
    (hg4 : g.startIndexMap = [0])
    (z h : (⟨2, ![N, F]⟩ : Shape).Idx → EReal) (idxD : IVec ⟨2, ![E, 1]⟩ w) (idxS : IVec ⟨2, ![E, 1]⟩ w')
    (c : Fin F) (hz : ∀ r : Fin N, z (ix2 r c) = 0) (hh : ∀ r : Fin N, h (ix2 r c) = 0) (r : Fin N) :
    Ideal.hostScatterAdd d z idxD (Host.gather g h idxS) (ix2 r c) = 0 := by
  unfold Ideal.hostScatterAdd
  rw [hz, zero_add]
  refine Finset.sum_eq_zero fun j hj => ?_
  have hj' := (Finset.mem_filter.1 hj).2
  have hc : (j 1).val = c.val := (rowScatter_col d hd1 hd2 hd3 idxD j (ix2 r c) hj').symm
  show h (g.operandIdx j idxS) = 0
  have e : g.operandIdx j idxS = ix2 (g.operandIdx j idxS 0) c := by
    refine (eq_ix2 _).trans ?_
    congr 1
    exact Fin.ext ((rowGather_col g hg1 hg2 hg3 hg4 idxS j).trans hc)
  rw [e]; exact hh _

/-- The one index of a [1] array. -/
theorem idx1_unique (q : (⟨1, ![1]⟩ : Shape).Idx) : q = ix1 (0 : Fin 1) :=
  funext fun b => match b with
    | ⟨0, _⟩ => Fin.ext (Nat.lt_one_iff.mp ((q ⟨0, Nat.one_pos⟩).isLt : (q ⟨0, Nat.one_pos⟩).val < 1))

/-- Overwriting column `k` of an [N, F] table with [N] updates (one scatter index, the literal `k`, inside the table):
    some update lands on an element exactly when the element sits in column `k`. -/
theorem colSet_lands_iff {N F w : Nat} (d : ScatterDims ⟨2, ![N, F]⟩ ⟨1, ![1]⟩ ⟨1, ![N]⟩)
    (h1 : d.updateWindowDims = [0]) (h2 : d.insertedWindowDims = [1]) (h3 : d.scatterDimsToOperandDims = [1])
    (h4 : d.indexVectorDim = 0)
    (idx : IVec ⟨1, ![1]⟩ w) (k : Nat) (hk : (idx (ix1 (0 : Fin 1))).toInt = (k : ℤ)) (hkF : k < F)
    (i : (⟨2, ![N, F]⟩ : Shape).Idx) :
    (∃ j : (⟨1, ![N]⟩ : Shape).Idx, d.resultIdx? j idx = some i) ↔ (i 1).val = k := by
  obtain ⟨uwd, iwd, sdo, ivd, wf⟩ := d
  simp only at h1 h2 h3 h4
  subst h1 h2 h3 h4
  have hs0 : ∀ j, ScatterDims.start (⟨[0], [1], [1], 0, wf⟩ : ScatterDims ⟨2, ![N, F]⟩ ⟨1, ![1]⟩ ⟨1, ![N]⟩) j idx 0 = 0 := by
    intro j; unfold ScatterDims.start; rw [dif_neg (by simp)]
  have hs1 : ∀ j, ScatterDims.start (⟨[0], [1], [1], 0, wf⟩ : ScatterDims ⟨2, ![N, F]⟩ ⟨1, ![1]⟩ ⟨1, ![N]⟩) j idx 1 = (k : ℤ) := by
    intro j; unfold ScatterDims.start; rw [dif_pos (by simp), idx1_unique (ScatterDims.siIdx _ _ _), hk]
  have hw0 : ∀ j, ScatterDims.window (⟨[0], [1], [1], 0, wf⟩ : ScatterDims ⟨2, ![N, F]⟩ ⟨1, ![1]⟩ ⟨1, ![N]⟩) j 0 = (j 0).val := by
    intro j; unfold ScatterDims.window
    rw [dif_pos (by simp [ScatterDims.sKept, Shape.kept, List.finRange])]
    rfl
  have hw1 : ∀ j, ScatterDims.window (⟨[0], [1], [1], 0, wf⟩ : ScatterDims ⟨2, ![N, F]⟩ ⟨1, ![1]⟩ ⟨1, ![N]⟩) j 1 = 0 := by
    intro j; unfold ScatterDims.window
    rw [dif_neg (by simp [ScatterDims.sKept, Shape.kept, List.finRange])]
  constructor
  · rintro ⟨j, h⟩
    unfold ScatterDims.resultIdx? at h
    split at h
    · cases h
      show (ScatterDims.start (⟨[0], [1], [1], 0, wf⟩ : ScatterDims ⟨2, ![N, F]⟩ ⟨1, ![1]⟩ ⟨1, ![N]⟩) j idx 1
        + ScatterDims.window (⟨[0], [1], [1], 0, wf⟩ : ScatterDims ⟨2, ![N, F]⟩ ⟨1, ![1]⟩ ⟨1, ![N]⟩) j 1).toNat = k
      rw [hs1, hw1]; simp
    · cases h
  · intro hi
    refine ⟨ix1 (i 0), ?_⟩
    have hall : ∀ a : Fin 2,
        0 ≤ ScatterDims.start (⟨[0], [1], [1], 0, wf⟩ : ScatterDims ⟨2, ![N, F]⟩ ⟨1, ![1]⟩ ⟨1, ![N]⟩) (ix1 (i 0)) idx a
            + ScatterDims.window (⟨[0], [1], [1], 0, wf⟩ : ScatterDims ⟨2, ![N, F]⟩ ⟨1, ![1]⟩ ⟨1, ![N]⟩) (ix1 (i 0)) a
        ∧ ScatterDims.start (⟨[0], [1], [1], 0, wf⟩ : ScatterDims ⟨2, ![N, F]⟩ ⟨1, ![1]⟩ ⟨1, ![N]⟩) (ix1 (i 0)) idx a
            + ScatterDims.window (⟨[0], [1], [1], 0, wf⟩ : ScatterDims ⟨2, ![N, F]⟩ ⟨1, ![1]⟩ ⟨1, ![N]⟩) (ix1 (i 0)) a
          < (⟨2, ![N, F]⟩ : Shape).size a := by
      intro a
      match a with
      | ⟨0, _⟩ =>
        rw [show (⟨0, by omega⟩ : Fin 2) = 0 from rfl, hs0, hw0]
        have := idx2_lt0 i
        show 0 ≤ (0 : ℤ) + ((i 0).val : ℤ) ∧ (0 : ℤ) + ((i 0).val : ℤ) < (N : ℤ)
        omega
      | ⟨1, _⟩ =>
        rw [show (⟨1, by omega⟩ : Fin 2) = 1 from rfl, hs1, hw1]
        show 0 ≤ (k : ℤ) + ((0 : ℕ) : ℤ) ∧ (k : ℤ) + ((0 : ℕ) : ℤ) < (F : ℤ)
        omega
    unfold ScatterDims.resultIdx?
    rw [dif_pos hall]
    refine congrArg some (funext fun a => Fin.ext ?_)
    match a with
    | ⟨0, _⟩ =>
      show (ScatterDims.start (⟨[0], [1], [1], 0, wf⟩ : ScatterDims ⟨2, ![N, F]⟩ ⟨1, ![1]⟩ ⟨1, ![N]⟩) (ix1 (i 0)) idx 0
        + ScatterDims.window (⟨[0], [1], [1], 0, wf⟩ : ScatterDims ⟨2, ![N, F]⟩ ⟨1, ![1]⟩ ⟨1, ![N]⟩) (ix1 (i 0)) 0).toNat = (i 0).val
      rw [hs0, hw0, Int.zero_add, Int.toNat_natCast]; rfl
    | ⟨1, _⟩ =>
      show (ScatterDims.start (⟨[0], [1], [1], 0, wf⟩ : ScatterDims ⟨2, ![N, F]⟩ ⟨1, ![1]⟩ ⟨1, ![N]⟩) (ix1 (i 0)) idx 1
        + ScatterDims.window (⟨[0], [1], [1], 0, wf⟩ : ScatterDims ⟨2, ![N, F]⟩ ⟨1, ![1]⟩ ⟨1, ![N]⟩) (ix1 (i 0)) 1).toNat = (i 1).val
      rw [hs1, hw1, hi]; simp

/-- Overwriting column `k` of an [N, F] table with updates that all hold `v`: column `k` holds `v`, every other column is
    the table's. -/
theorem colSet_const_apply {N F w : Nat} (d : ScatterDims ⟨2, ![N, F]⟩ ⟨1, ![1]⟩ ⟨1, ![N]⟩)
    (h1 : d.updateWindowDims = [0]) (h2 : d.insertedWindowDims = [1]) (h3 : d.scatterDimsToOperandDims = [1])
    (h4 : d.indexVectorDim = 0) {α : Type} (x : (⟨2, ![N, F]⟩ : Shape).Idx → α)
    (idx : IVec ⟨1, ![1]⟩ w) (k : Nat) (hk : (idx (ix1 (0 : Fin 1))).toInt = (k : ℤ)) (hkF : k < F)
    (upd : (⟨1, ![N]⟩ : Shape).Idx → α) (v : α) (hu : ∀ j, upd j = v) (i : (⟨2, ![N, F]⟩ : Shape).Idx) :
    Host.scatter d (fun _ b => b) x idx upd i = if (i 1).val = k then v else x i := by
  rw [scatter_set_const_apply d x idx upd v hu i]
  exact if_congr (colSet_lands_iff d h1 h2 h3 h4 idx k hk hkF i) rfl rfl

end Cert.Lib

end
-- ==== Proof.KernelHost.lean ====
/-
  The arrays the kernel's region finds: what the host operations before it computed, at the extended reals.

  Before the region the host program aggregates neighbours twice. With cnt(n) the number of edges whose destination is
  n and inv = 1 / max(cnt, 1), one aggregation of a table h is
      agg h = (zeros scatter-added, along the destinations, with the rows of h gathered at the sources) · inv  (row by row),
  and the program forms h1 = agg(features) · mask, with mask 0 on column 0 and 1 elsewhere, then h2 = agg(h1).
  Column 0 of h1 is zero (a product with 0), hence so is column 0 of h2: each of its entries is zero plus a sum of entries
  of column 0 of h1, times inv. The weights reach the region through a change of float format (the identity at the
  extended reals) and the biases through a reshape of [n] to [1, n].
-/
import proofs.«148973_j77421080477948_2_alg».proof.Proof.Gen.KernelIdeal.Frame
import proofs.«148973_j77421080477948_2_alg».proof.Proof.LibColumnOps
import proofs.«148973_j77421080477948_2_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.HostVal

open Cert.KernelIdeal Cert.KernelIdeal.Gen Idealize.ShloMosaic Idealize.ShloMosaic.TcCoe Idealize.SL.Sem
open Idealize.ShloMosaic.StableHlo Idealize.ShloMosaic.ValueIdx

/-- 1 / max(number of edges into the node, 1), as a one-column table. -/
def invDeg (dst : IVec S200000 32) : FVec Ideal S50000x1 .f32 :=
  broadcastInDim S50000x1 ![0] bcast_S50000_S50000x1_0
    (Host.divf (broadcastInDim S50000 ![] bcast_S_S50000 (constant (F := Ideal) S_ .f32 0x3F800000#32))
      (maximumf
        (Host.scatterAdd scatter_S50000_S200000x1_S200000_n_0_0_1
          (broadcastInDim S50000 ![] bcast_S_S50000 (constant (F := Ideal) S_ .f32 0x00000000#32))
          (broadcastInDim S200000x1 ![0] bcast_S200000_S200000x1_0 dst)
          (broadcastInDim S200000 ![] bcast_S_S200000 (constant (F := Ideal) S_ .f32 0x3F800000#32)))
        (broadcastInDim S50000 ![] bcast_S_S50000 (constant (F := Ideal) S_ .f32 0x3F800000#32))))

/-- The source indices as the gather reads them: a negative index counted from the end, as one column. -/
def srcIdx (src : IVec S200000 32) : IVec S200000x1 32 :=
  broadcastInDim S200000x1 ![0] bcast_S200000_S200000x1_0
    (select (cmpi .slt src (broadcastInDim S200000 ![] bcast_S_S200000 (constantI S_ 32 0#32)))
      (addi src (broadcastInDim S200000 ![] bcast_S_S200000 (constantI S_ 32 50000#32))) src)

/-- One neighbour aggregation of the table `h`: the rows of `h` at the sources, added up along the destinations, times
    `invDeg` row by row. -/
def agg (h : FVec Ideal S50000x394 .f32) (src dst : IVec S200000 32) : FVec Ideal S50000x394 .f32 :=
  mulf
    (Host.scatterAdd scatter_S50000x394_S200000x1_S200000x394_1_0_0_1
      (broadcastInDim S50000x394 ![] bcast_S_S50000x394 (constant (F := Ideal) S_ .f32 0x00000000#32))
      (broadcastInDim S200000x1 ![0] bcast_S200000_S200000x1_0 dst)
      (Host.gather gather_S50000x394_S200000x1_S200000x394_1_0_n_n_0_1_1394 h (srcIdx src)))
    (broadcastInDim S50000x394 ![0, 1] bcast_S50000x1_S50000x394_0_1 (invDeg dst))

/-- The column mask: 0 on column 0, 1 on every other column, on every row. -/
def colMask : FVec Ideal S50000x394 .f32 :=
  broadcastInDim S50000x394 ![0, 1] bcast_S1x394_S50000x394_0_1
    (uitofp (F := Ideal) .f32 (cmpi .ne (iotaInDim S1x394 32 1) (broadcastInDim S1x394 ![] bcast_S_S1x394 (constantI S_ 32 0#32))))

/-- The first aggregate, its column 0 masked to zero. -/
def h1 (feat : FVec Ideal S50000x394 .f32) (src dst : IVec S200000 32) : FVec Ideal S50000x394 .f32 :=
  mulf (agg feat src dst) colMask

/-- The second aggregate: the aggregation of the first. -/
def h2 (feat : FVec Ideal S50000x394 .f32) (src dst : IVec S200000 32) : FVec Ideal S50000x394 .f32 :=
  agg (h1 feat src dst) src dst

/-- The mask at column c: 0 at column 0, 1 elsewhere. -/
theorem colMask_apply (r : Fin 50000) (c : Fin 394) : colMask (ix2 r c) = if c.val = 0 then 0 else 1 := by
  unfold colMask
  rw [broadcastInDim_apply _ bcast_S1x394_S50000x394_0_1 _ (ix2 r c) (ix2 (0 : Fin 1) c) (fun a => by
    match a with
    | ⟨0, _⟩ => rfl
    | ⟨1, _⟩ => rfl)]
  show (((IntOp.cmpi .ne (BitVec.ofNat 32 c.val) (0#32 : BitVec 32)).toNat : ℝ) : EReal) = _
  by_cases h : c.val = 0
  · rw [if_pos h, h]; simp [IntOp.cmpi]
  · rw [if_neg h]
    have hne : BitVec.ofNat 32 c.val ≠ 0#32 := fun h2 => h (by
      have h3 := congrArg BitVec.toNat h2
      rw [BitVec.toNat_ofNat, Nat.mod_eq_of_lt (by have := c.isLt; omega)] at h3
      exact h3)
    simp [IntOp.cmpi, hne]

/-- The first aggregate at (r, c): zero on column 0, the aggregation of the features elsewhere. -/
theorem h1_apply (feat : FVec Ideal S50000x394 .f32) (src dst : IVec S200000 32) (r : Fin 50000) (c : Fin 394) :
    h1 feat src dst (ix2 r c) = if c.val = 0 then 0 else agg feat src dst (ix2 r c) := by
  show agg feat src dst (ix2 r c) * colMask (ix2 r c) = _
  rw [colMask_apply]
  split
  · exact mul_zero _
  · exact mul_one _

/-- Column 0 of the second aggregate is zero: zero plus a sum of entries of column 0 of the first, times `invDeg`. -/
theorem h2_col0 (feat : FVec Ideal S50000x394 .f32) (src dst : IVec S200000 32) (r : Fin 50000) :
    h2 feat src dst (ix2 r (0 : Fin 394)) = 0 := by
  show Ideal.hostScatterAdd scatter_S50000x394_S200000x1_S200000x394_1_0_0_1
        (broadcastInDim S50000x394 ![] bcast_S_S50000x394 (constant (F := Ideal) S_ .f32 0x00000000#32))
        (broadcastInDim S200000x1 ![0] bcast_S200000_S200000x1_0 dst)
        (Host.gather gather_S50000x394_S200000x1_S200000x394_1_0_n_n_0_1_1394 (h1 feat src dst) (srcIdx src)) (ix2 r (0 : Fin 394))
      * (broadcastInDim S50000x394 ![0, 1] bcast_S50000x1_S50000x394_0_1 (invDeg dst)) (ix2 r (0 : Fin 394)) = 0
  rw [Cert.Lib.scatterAdd_gather_col_zero scatter_S50000x394_S200000x1_S200000x394_1_0_0_1
      gather_S50000x394_S200000x1_S200000x394_1_0_n_n_0_1_1394 rfl rfl rfl rfl rfl rfl rfl _ (h1 feat src dst) _ (srcIdx src)
      (0 : Fin 394) (fun r' => Ideal.ofBits_zero_f32) (fun r' => (h1_apply feat src dst r' 0).trans (if_pos rfl)) r]
  exact zero_mul _

end Cert.KernelIdeal.HostVal

end
-- ==== Proof.KernelWindows.lean ====
/-
  The arrays the kernel's region finds, read off the host operations before it: window 1's array is the second
  aggregate of the features; the four weight arrays are the arguments (a change of float format is the identity at the
  extended reals); the four bias arrays are the arguments reshaped from [n] to one row [1, n].
-/
import proofs.«148973_j77421080477948_2_alg».proof.Proof.KernelHost

noncomputable section

namespace Cert.KernelIdeal.HostVal

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 4000000 in
/-- The region finds the second aggregate in the array its window 1 stages. -/
theorem V_h2 (c : Dev nD) :
    (V m c main_v38 : S50000x394.Idx → EReal)
      = h2 (m ((c : Thread nD τ).loc main_arg0)) (m ((c : Thread nD τ).loc main_arg1)) (m ((c : Thread nD τ).loc main_arg2)) := by
  dsimp only [Gen.V, Gen.hostOps0]
  after_results_simp
  rfl

set_option maxHeartbeats 4000000 in
/-- The weights reach the region through a change of float format, the identity at the extended reals. -/
theorem V_w1 (c : Dev nD) : (V m c main_v39 : S788x192.Idx → EReal) = m ((c : Thread nD τ).loc main_arg3) := by
  dsimp only [Gen.V, Gen.hostOps0]
  after_results_simp
  rfl

set_option maxHeartbeats 4000000 in
theorem V_w3 (c : Dev nD) : (V m c main_v40 : S192x128.Idx → EReal) = m ((c : Thread nD τ).loc main_arg5) := by
  dsimp only [Gen.V, Gen.hostOps0]
  after_results_simp
  rfl

set_option maxHeartbeats 4000000 in
theorem V_wd1 (c : Dev nD) : (V m c main_v41 : S128x192.Idx → EReal) = m ((c : Thread nD τ).loc main_arg7) := by
  dsimp only [Gen.V, Gen.hostOps0]
  after_results_simp
  rfl

set_option maxHeartbeats 4000000 in
theorem V_wd3 (c : Dev nD) : (V m c main_v42 : S192x788.Idx → EReal) = m ((c : Thread nD τ).loc main_arg9) := by
  dsimp only [Gen.V, Gen.hostOps0]
  after_results_simp
  rfl

/-- A bias of n entries reshaped to one row of n: the row's column a is the bias's entry a. -/
theorem row_of_reshape {n : Nat} (b : (⟨1, ![n]⟩ : Shape).Idx → EReal) (h : (⟨1, ![n]⟩ : Shape).ShapeCasts ⟨2, ![1, n]⟩) :
    Cert.Spec.curRow (shapeCast ⟨2, ![1, n]⟩ b h) = Cert.Spec.cur1 b := by
  funext a
  show shapeCast ⟨2, ![1, n]⟩ b h (ix2 (0 : Fin 1) a) = b (ix1 a)
  rw [shapeCast_addUnit_apply ![n] b h (ix2 (0 : Fin 1) a)]
  refine congrArg b (funext fun d => ?_)
  match d with
  | ⟨0, _⟩ => rfl

set_option maxHeartbeats 4000000 in
theorem V_b1 (c : Dev nD) :
    Cert.Spec.curRow (V m c main_v43 : S1x192.Idx → EReal) = Cert.Spec.cur1 (m ((c : Thread nD τ).loc main_arg4) : S192.Idx → EReal) := by
  have e : (V m c main_v43 : S1x192.Idx → EReal) = shapeCast S1x192 (m ((c : Thread nD τ).loc main_arg4) : S192.Idx → EReal) shapeCasts_S192_S1x192 := by
    dsimp only [Gen.V, Gen.hostOps0]
    after_results_simp
    rfl
  rw [e]; exact row_of_reshape _ _

set_option maxHeartbeats 4000000 in
theorem V_b3 (c : Dev nD) :
    Cert.Spec.curRow (V m c main_v44 : S1x128.Idx → EReal) = Cert.Spec.cur1 (m ((c : Thread nD τ).loc main_arg6) : S128.Idx → EReal) := by
  have e : (V m c main_v44 : S1x128.Idx → EReal) = shapeCast S1x128 (m ((c : Thread nD τ).loc main_arg6) : S128.Idx → EReal) shapeCasts_S128_S1x128 := by
    dsimp only [Gen.V, Gen.hostOps0]
    after_results_simp
    rfl
  rw [e]; exact row_of_reshape _ _

set_option maxHeartbeats 4000000 in
theorem V_bd1 (c : Dev nD) :
    Cert.Spec.curRow (V m c main_v45 : S1x192.Idx → EReal) = Cert.Spec.cur1 (m ((c : Thread nD τ).loc main_arg8) : S192.Idx → EReal) := by
  have e : (V m c main_v45 : S1x192.Idx → EReal) = shapeCast S1x192 (m ((c : Thread nD τ).loc main_arg8) : S192.Idx → EReal) shapeCasts_S192_S1x192 := by
    dsimp only [Gen.V, Gen.hostOps0]
    after_results_simp
    rfl
  rw [e]; exact row_of_reshape _ _

set_option maxHeartbeats 4000000 in
theorem V_bd3 (c : Dev nD) :
    Cert.Spec.curRow (V m c main_v46 : S1x788.Idx → EReal) = Cert.Spec.cur1 (m ((c : Thread nD τ).loc main_arg10) : S788.Idx → EReal) := by
  have e : (V m c main_v46 : S1x788.Idx → EReal) = shapeCast S1x788 (m ((c : Thread nD τ).loc main_arg10) : S788.Idx → EReal) shapeCasts_S788_S1x788 := by
    dsimp only [Gen.V, Gen.hostOps0]
    after_results_simp
    rfl
  rw [e]; exact row_of_reshape _ _

end Cert.KernelIdeal.HostVal

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.KernelPayload.lean ====
/-
  The kernel body's four stored blocks, read entry by entry over the extended reals.

  The body builds the embedding block X [1000, 788] (each row: the node's 394 features with feature 0 replaced by zero,
  then its 394 aggregated features), the encoder block [1000, 128] and the decoder block [1000, 788]. Over the extended
  reals a narrowing format change is the identity, a matrix product accumulated into the zero block is the exact sum
  over the contracted coordinate, a one-row bias broadcast down the rows adds the bias of the column, and a maximum with
  the zero splat is `max · 0`. So each affine layer of the body is `Cert.Spec.lin` at every entry, the encoder block is
  `Cert.Spec.encOf` of the embedding block and the decoder block is `Cert.Spec.decOf` of the encoder block.
-/
import proofs.«148973_j77421080477948_2_alg».proof.Proof.Gen.KernelIdeal.Skeleton
import proofs.«148973_j77421080477948_2_alg».proof.Proof.Spec
import proofs.«148973_j77421080477948_2_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## Words: "coordinate n is 0" as a 32-bit comparison -/

/-- For n below 2^32 the comparison of the word of n with the zero word chooses the first operand exactly when n = 0. -/
theorem select_coord_zero {α : Type} (n : Nat) (hn : n < 2 ^ 32) (A B : α) :
    Scalar.select (IntOp.cmpi .eq (BitVec.ofNat 32 n) 0#32) A B = if n = 0 then A else B := by
  by_cases h : n = 0
  · subst h
    have hc : IntOp.cmpi .eq (BitVec.ofNat 32 0) 0#32 = 1#1 := IntOp.cmpi_eq.mpr rfl
    rw [if_pos rfl, hc]
    exact select_one A B
  · rw [if_neg h]
    have hc : IntOp.cmpi .eq (BitVec.ofNat 32 n) 0#32 = 0#1 := by
      refine eq_zero_of_ne_one fun h1 => h ?_
      have h2 : BitVec.ofNat 32 n = 0#32 := IntOp.cmpi_eq.mp h1
      have h3 := congrArg BitVec.toNat h2
      rw [BitVec.toNat_ofNat, Nat.mod_eq_of_lt hn] at h3
      exact h3
    rw [hc]
    exact select_zero A B

/-! ## One affine layer of the body at an entry -/

/-- A plain product of a narrowed [m, k] block with a [k, n] block into the zero block, plus a [1, n] row broadcast down
    the rows, is at entry (p, a) the sum over the contracted coordinate plus the bias of column a. -/
theorem layer_apply {m k n : Nat} (D : DotDims ⟨2, ![m, k]⟩ ⟨2, ![k, n]⟩ ⟨2, ![m, n]⟩) (hD : D = DotDims.plain m k n)
    (A : FVec Ideal ⟨2, ![m, k]⟩ .f32) (hlt : FTy.bits .bf16 < FTy.bits .f32)
    (B : FVec Ideal ⟨2, ![k, n]⟩ .bf16) (hB : (⟨2, ![k, n]⟩ : Shape).ShapeCasts ⟨2, ![k, n]⟩)
    (b : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) (p : Fin m) (a : Fin n) :
    addf (matmul D none (truncf .bf16 A hlt) (shapeCast ⟨2, ![k, n]⟩ B hB) (constant (F := Ideal) ⟨2, ![m, n]⟩ .f32 0x00000000#32))
        (broadcastTo ⟨2, ![m, n]⟩ (shapeCast ⟨2, ![1, n]⟩ b hc) hb) (ix2 p a)
      = Cert.Spec.lin (Cert.Spec.cur A) (Cert.Spec.cur B) (Cert.Spec.curRow b) p a := by
  subst hD
  rw [shapeCast_self B hB, shapeCast_self b hc]
  refine (addf_apply _ _ _).trans ?_
  rw [Cert.Lib.matmul_plain_zero_apply, broadcastTo_1b_ab_apply]
  rfl

/-- The same layer under a maximum with the zero splat: `max · 0` of the layer at the entry. -/
theorem relu_layer_apply {m k n : Nat} (D : DotDims ⟨2, ![m, k]⟩ ⟨2, ![k, n]⟩ ⟨2, ![m, n]⟩) (hD : D = DotDims.plain m k n)
    (A : FVec Ideal ⟨2, ![m, k]⟩ .f32) (hlt : FTy.bits .bf16 < FTy.bits .f32)
    (B : FVec Ideal ⟨2, ![k, n]⟩ .bf16) (hB : (⟨2, ![k, n]⟩ : Shape).ShapeCasts ⟨2, ![k, n]⟩)
    (b : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) (p : Fin m) (a : Fin n) :
    maximumf
        (addf (matmul D none (truncf .bf16 A hlt) (shapeCast ⟨2, ![k, n]⟩ B hB) (constant (F := Ideal) ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p a)
      = max (Cert.Spec.lin (Cert.Spec.cur A) (Cert.Spec.cur B) (Cert.Spec.curRow b) p a) 0 := by
  refine (maximumf_apply _ _ _).trans ?_
  rw [layer_apply D hD A hlt B hB b hc hb p a]
  show max _ (Ideal.ofBits .f32 0x00000000#32) = _
  rw [Ideal.ofBits_zero_f32]

/-! ## The embedding block -/

/-- Entry (p, j) of the embedding block: feature j of node p with feature 0 replaced by zero when j < 394, aggregated
    feature j - 394 otherwise. -/
theorem pay2_apply (x0 x1 : Vec Ideal S1000x394 .f32) (p : Fin 1000) (j : Fin 788) :
    k0_pay2 (F := Ideal) x0 x1 (ix2 p j) = Cert.Spec.embAt (Cert.Spec.cur x0) (Cert.Spec.cur x1) p j := by
  have hj788 : j.val < 788 := j.isLt
  unfold k0_pay2 Cert.Spec.embAt
  by_cases hj : j.val < 394
  · rw [dif_pos hj]
    refine (concatenate_pair_apply_left (t := S1000x788) (s₁ := S1000x394) (s₂ := S1000x394) _ _ _ _ (ix2 p j) rfl (ix2 p (⟨j.val, hj⟩ : Fin 394)) (fun b => ?_)).trans ?_
    · match b with
      | ⟨0, _⟩ => rfl
      | ⟨1, _⟩ => rfl
    · refine (select_apply _ _ _ _).trans ?_
      show Scalar.select (IntOp.cmpi .eq (iota .tc S1000x394 32 [1] _ (ix2 p (⟨j.val, hj⟩ : Fin 394))) 0#32)
        (Ideal.ofBits .f32 0x00000000#32) (x0 (ix2 p (⟨j.val, hj⟩ : Fin 394))) = _
      rw [iota_single_apply, Ideal.ofBits_zero_f32]
      show Scalar.select (IntOp.cmpi .eq (BitVec.ofNat 32 j.val) 0#32) (0 : EReal) (x0 (ix2 p (⟨j.val, hj⟩ : Fin 394))) = _
      rw [select_coord_zero j.val (by omega)]
      rfl
  · rw [dif_neg hj]
    refine (concatenate_pair_apply_right (t := S1000x788) (s₁ := S1000x394) (s₂ := S1000x394) _ _ _ _ (ix2 p j) rfl rfl (ix2 p (⟨j.val - 394, by omega⟩ : Fin 394))
      (fun b hb => ?_) ?_).trans ?_
    · match b, hb with
      | ⟨0, _⟩, _ => rfl
      | ⟨1, _⟩, hb => exact absurd rfl hb
    · show j.val - 394 + 394 = j.val
      omega
    · rw [shapeCast_self]
      rfl

/-! ## The encoder block -/

/-- Entry (p, a) of the encoder block is the encoder of the specification applied to the embedding block. -/
theorem pay3_apply (x0 x1 : Vec Ideal S1000x394 .f32) (x2 : Vec Ideal S788x192 .bf16) (x3 : Vec Ideal S1x192 .f32)
    (x4 : Vec Ideal S192x128 .bf16) (x5 : Vec Ideal S1x128 .f32) (p : Fin 1000) (a : Fin 128) :
    k0_pay3 (F := Ideal) x0 x1 x2 x3 x4 x5 (ix2 p a)
      = Cert.Spec.encOf (Cert.Spec.cur x2) (Cert.Spec.curRow x3) (Cert.Spec.cur x4) (Cert.Spec.curRow x5)
          (Cert.Spec.cur (k0_pay2 (F := Ideal) x0 x1)) p a := by
  unfold k0_pay3
  generalize k0_pay2 (F := Ideal) x0 x1 = X
  refine (layer_apply dot_S1000x192_S192x128_S1000x128_1_0_0_1_n_n rfl _ _ x4 _ x5 _ _ p a).trans ?_
  exact congrArg (fun Z => Cert.Spec.lin Z (Cert.Spec.cur x4) (Cert.Spec.curRow x5) p a)
    (funext fun r => funext fun c =>
      relu_layer_apply dot_S1000x788_S788x192_S1000x192_1_0_0_1_n_n rfl X _ x2 _ x3 _ _ r c)

/-! ## The decoder block -/

/-- Entry (p, j) of the decoder block is the decoder of the specification applied to the encoder block. -/
theorem pay1_apply (x0 x1 : Vec Ideal S1000x394 .f32) (x2 : Vec Ideal S788x192 .bf16) (x3 : Vec Ideal S1x192 .f32)
    (x4 : Vec Ideal S192x128 .bf16) (x5 : Vec Ideal S1x128 .f32) (x6 : Vec Ideal S128x192 .bf16) (x7 : Vec Ideal S1x192 .f32)
    (x8 : Vec Ideal S192x788 .bf16) (x9 : Vec Ideal S1x788 .f32) (p : Fin 1000) (j : Fin 788) :
    k0_pay1 (F := Ideal) (k0_pay4 (F := Ideal) x0 x1 x2 x3 x4 x5 x6) x7 x8 x9 (ix2 p j)
      = Cert.Spec.decOf (Cert.Spec.cur x6) (Cert.Spec.curRow x7) (Cert.Spec.cur x8) (Cert.Spec.curRow x9)
          (Cert.Spec.cur (k0_pay3 (F := Ideal) x0 x1 x2 x3 x4 x5)) p j := by
  unfold k0_pay1 k0_pay4
  generalize k0_pay3 (F := Ideal) x0 x1 x2 x3 x4 x5 = E
  refine (layer_apply dot_S1000x192_S192x788_S1000x788_1_0_0_1_n_n rfl _ _ x8 _ x9 _ _ p j).trans ?_
  exact congrArg (fun Z => Cert.Spec.lin Z (Cert.Spec.cur x8) (Cert.Spec.curRow x9) p j)
    (funext fun r => funext fun c =>
      relu_layer_apply dot_S1000x128_S128x192_S1000x192_1_0_0_1_n_n rfl E _ x6 _ x7 _ _ r c)

end Cert.KernelIdeal.Pay

end
-- ==== Proof.KernelBlockReads.lean ====
/-
  Block reads and block covers of the kernel's thirteen windows: two short arguments, one instance per window.

  Window w's block at grid point t is the rectangle of w's array at offset (block index × block extent) on each axis,
  so the block read at y is the array at (index × extent + y) on each axis, and an index of the array lies in the block
  iff on each axis it is at least index × extent and below index × extent + extent. The grid has 50 points on one axis.
  The two tables read at point t (features, aggregates: arrays [50000, 394], blocks [1000, 394]) and the three tables
  written (embedding [50000, 788], encoder output [50000, 128], decoder output [50000, 788], blocks of 1000 rows) are at
  block (t, 0): row p of the block is row 1000 t + p of the array, and row r of the array is in the block of point
  r / 1000. The eight weight and bias arrays ([788, 192], [1, 192], [192, 128], [1, 128], [128, 192], [1, 192],
  [192, 788], [1, 788]) are whole blocks at block (0, 0): the block is the array.
  The reads are stated for ANY array A in the window's place and then taken at the array the region finds.
-/
import proofs.«148973_j77421080477948_2_alg».proof.Proof.Gen.KernelIdeal.Frame
import Idealize.ShloMosaic.Lib.ValueIdx

noncomputable section

namespace Cert.KernelIdeal.Blocks

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ)

/-! ## The grid: which block each point reads and writes -/

/-- The row-blocked windows (the two tables read, the three tables written) are at block (t, 0) at point t. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The weights' and biases' windows are at block (0, 0) at every point. -/
theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Row p of point t's blocks is row 1000 t + p of the tables. -/
def rowOf (t : Fin cfg0.N) (p : Fin 1000) : Fin 50000 :=
  ⟨t.val * 1000 + p.val, by have ht := t.isLt; have hN : cfg0.N = 50 := N_0; have hp := p.isLt; omega⟩

/-! ## The input blocks, read off the arrays -/

/-- Point t's block of a [50000, 394] array in window 0's place is the array's rows 1000 t …. -/
theorem blk0_read (t : Fin cfg0.N) (A : S50000x394.Idx → EReal) (p : Fin 1000) (q : Fin 394) :
    (((cfg0.win 0).blk t).view.read (Elt Ideal) A : Vec Ideal S1000x394 .f32) (ix2 p q) = A (ix2 (rowOf t p) q) := by
  obtain ⟨e0, e1, -⟩ := idx_rows t
  rw [View.read_apply]
  show A _ = A _
  congr 1
  funext a
  apply Fin.ext
  match a with
  | ⟨0, _⟩ => show win0_0.index t (0 : Fin 2) * 1000 + 1 * p.val = t.val * 1000 + p.val; rw [e0]; omega
  | ⟨1, _⟩ => show win0_0.index t (1 : Fin 2) * 394 + 1 * q.val = q.val; rw [e1]; omega

/-- So the feature table's block at point t is its rows 1000 t …. -/
theorem iblk0_apply (c : Dev nD) (t : Fin cfg0.N) (p : Fin 1000) (q : Fin 394) :
    (iblk m c 0 t : Vec Ideal S1000x394 .f32) (ix2 p q) = (V m c main_arg0 : S50000x394.Idx → EReal) (ix2 (rowOf t p) q) :=
  blk0_read t (V m c main_arg0) p q

/-- Point t's block of a [50000, 394] array in window 1's place is the array's rows 1000 t …. -/
theorem blk1_read (t : Fin cfg0.N) (A : S50000x394.Idx → EReal) (p : Fin 1000) (q : Fin 394) :
    (((cfg0.win 1).blk t).view.read (Elt Ideal) A : Vec Ideal S1000x394 .f32) (ix2 p q) = A (ix2 (rowOf t p) q) := by
  obtain ⟨-, -, e0, e1, -⟩ := idx_rows t
  rw [View.read_apply]
  show A _ = A _
  congr 1
  funext a
  apply Fin.ext
  match a with
  | ⟨0, _⟩ => show win0_1.index t (0 : Fin 2) * 1000 + 1 * p.val = t.val * 1000 + p.val; rw [e0]; omega
  | ⟨1, _⟩ => show win0_1.index t (1 : Fin 2) * 394 + 1 * q.val = q.val; rw [e1]; omega

/-- So the aggregate table's block at point t is its rows 1000 t …. -/
theorem iblk1_apply (c : Dev nD) (t : Fin cfg0.N) (p : Fin 1000) (q : Fin 394) :
    (iblk m c 1 t : Vec Ideal S1000x394 .f32) (ix2 p q) = (V m c main_v38 : S50000x394.Idx → EReal) (ix2 (rowOf t p) q) :=
  blk1_read t (V m c main_v38) p q

/-- Window 2's block at every point is the whole [788, 192] array. -/
theorem blk2_read (t : Fin cfg0.N) (A : S788x192.Idx → EReal) (k : Fin 788) (a : Fin 192) :
    (((cfg0.win 2).blk t).view.read (Elt Ideal) A : Vec Ideal S788x192 .bf16) (ix2 k a) = A (ix2 k a) := by
  obtain ⟨e0, e1, -⟩ := idx_whole t
  rw [View.read_apply]
  show A _ = A _
  congr 1
  funext b
  apply Fin.ext
  match b with
  | ⟨0, _⟩ => show win0_2.index t (0 : Fin 2) * 788 + 1 * k.val = k.val; rw [e0]; omega
  | ⟨1, _⟩ => show win0_2.index t (1 : Fin 2) * 192 + 1 * a.val = a.val; rw [e1]; omega

/-- So window 2's block at every point is the array the region finds. -/
theorem iblk2_apply (c : Dev nD) (t : Fin cfg0.N) (k : Fin 788) (a : Fin 192) :
    (iblk m c 2 t : Vec Ideal S788x192 .bf16) (ix2 k a) = (V m c main_v39 : S788x192.Idx → EReal) (ix2 k a) :=
  blk2_read t (V m c main_v39) k a

/-- Window 3's block at every point is the whole [1, 192] array. -/
theorem blk3_read (t : Fin cfg0.N) (A : S1x192.Idx → EReal) (k : Fin 1) (a : Fin 192) :
    (((cfg0.win 3).blk t).view.read (Elt Ideal) A : Vec Ideal S1x192 .f32) (ix2 k a) = A (ix2 k a) := by
  obtain ⟨-, -, e0, e1, -⟩ := idx_whole t
  rw [View.read_apply]
  show A _ = A _
  congr 1
  funext b
  apply Fin.ext
  match b with
  | ⟨0, _⟩ => show win0_3.index t (0 : Fin 2) * 1 + 1 * k.val = k.val; rw [e0]; omega
  | ⟨1, _⟩ => show win0_3.index t (1 : Fin 2) * 192 + 1 * a.val = a.val; rw [e1]; omega

/-- So window 3's block at every point is the array the region finds. -/
theorem iblk3_apply (c : Dev nD) (t : Fin cfg0.N) (k : Fin 1) (a : Fin 192) :
    (iblk m c 3 t : Vec Ideal S1x192 .f32) (ix2 k a) = (V m c main_v43 : S1x192.Idx → EReal) (ix2 k a) :=
  blk3_read t (V m c main_v43) k a

/-- Window 4's block at every point is the whole [192, 128] array. -/
theorem blk4_read (t : Fin cfg0.N) (A : S192x128.Idx → EReal) (k : Fin 192) (a : Fin 128) :
    (((cfg0.win 4).blk t).view.read (Elt Ideal) A : Vec Ideal S192x128 .bf16) (ix2 k a) = A (ix2 k a) := by
  obtain ⟨-, -, -, -, e0, e1, -⟩ := idx_whole t
  rw [View.read_apply]
  show A _ = A _
  congr 1
  funext b
  apply Fin.ext
  match b with
  | ⟨0, _⟩ => show win0_4.index t (0 : Fin 2) * 192 + 1 * k.val = k.val; rw [e0]; omega
  | ⟨1, _⟩ => show win0_4.index t (1 : Fin 2) * 128 + 1 * a.val = a.val; rw [e1]; omega

/-- So window 4's block at every point is the array the region finds. -/
theorem iblk4_apply (c : Dev nD) (t : Fin cfg0.N) (k : Fin 192) (a : Fin 128) :
    (iblk m c 4 t : Vec Ideal S192x128 .bf16) (ix2 k a) = (V m c main_v40 : S192x128.Idx → EReal) (ix2 k a) :=
  blk4_read t (V m c main_v40) k a

/-- Window 5's block at every point is the whole [1, 128] array. -/
theorem blk5_read (t : Fin cfg0.N) (A : S1x128.Idx → EReal) (k : Fin 1) (a : Fin 128) :
    (((cfg0.win 5).blk t).view.read (Elt Ideal) A : Vec Ideal S1x128 .f32) (ix2 k a) = A (ix2 k a) := by
  obtain ⟨-, -, -, -, -, -, e0, e1, -⟩ := idx_whole t
  rw [View.read_apply]
  show A _ = A _
  congr 1
  funext b
  apply Fin.ext
  match b with
  | ⟨0, _⟩ => show win0_5.index t (0 : Fin 2) * 1 + 1 * k.val = k.val; rw [e0]; omega
  | ⟨1, _⟩ => show win0_5.index t (1 : Fin 2) * 128 + 1 * a.val = a.val; rw [e1]; omega

/-- So window 5's block at every point is the array the region finds. -/
theorem iblk5_apply (c : Dev nD) (t : Fin cfg0.N) (k : Fin 1) (a : Fin 128) :
    (iblk m c 5 t : Vec Ideal S1x128 .f32) (ix2 k a) = (V m c main_v44 : S1x128.Idx → EReal) (ix2 k a) :=
  blk5_read t (V m c main_v44) k a

/-- Window 6's block at every point is the whole [128, 192] array. -/
theorem blk6_read (t : Fin cfg0.N) (A : S128x192.Idx → EReal) (k : Fin 128) (a : Fin 192) :
    (((cfg0.win 6).blk t).view.read (Elt Ideal) A : Vec Ideal S128x192 .bf16) (ix2 k a) = A (ix2 k a) := by
  obtain ⟨-, -, -, -, -, -, -, -, e0, e1, -⟩ := idx_whole t
  rw [View.read_apply]
  show A _ = A _
  congr 1
  funext b
  apply Fin.ext
  match b with
  | ⟨0, _⟩ => show win0_6.index t (0 : Fin 2) * 128 + 1 * k.val = k.val; rw [e0]; omega
  | ⟨1, _⟩ => show win0_6.index t (1 : Fin 2) * 192 + 1 * a.val = a.val; rw [e1]; omega

/-- So window 6's block at every point is the array the region finds. -/
theorem iblk6_apply (c : Dev nD) (t : Fin cfg0.N) (k : Fin 128) (a : Fin 192) :
    (iblk m c 6 t : Vec Ideal S128x192 .bf16) (ix2 k a) = (V m c main_v41 : S128x192.Idx → EReal) (ix2 k a) :=
  blk6_read t (V m c main_v41) k a

/-- Window 7's block at every point is the whole [1, 192] array. -/
theorem blk7_read (t : Fin cfg0.N) (A : S1x192.Idx → EReal) (k : Fin 1) (a : Fin 192) :
    (((cfg0.win 7).blk t).view.read (Elt Ideal) A : Vec Ideal S1x192 .f32) (ix2 k a) = A (ix2 k a) := by
  obtain ⟨-, -, -, -, -, -, -, -, -, -, e0, e1, -⟩ := idx_whole t
  rw [View.read_apply]
  show A _ = A _
  congr 1
  funext b
  apply Fin.ext
  match b with
  | ⟨0, _⟩ => show win0_7.index t (0 : Fin 2) * 1 + 1 * k.val = k.val; rw [e0]; omega
  | ⟨1, _⟩ => show win0_7.index t (1 : Fin 2) * 192 + 1 * a.val = a.val; rw [e1]; omega

/-- So window 7's block at every point is the array the region finds. -/
theorem iblk7_apply (c : Dev nD) (t : Fin cfg0.N) (k : Fin 1) (a : Fin 192) :
    (iblk m c 7 t : Vec Ideal S1x192 .f32) (ix2 k a) = (V m c main_v45 : S1x192.Idx → EReal) (ix2 k a) :=
  blk7_read t (V m c main_v45) k a

/-- Window 8's block at every point is the whole [192, 788] array. -/
theorem blk8_read (t : Fin cfg0.N) (A : S192x788.Idx → EReal) (k : Fin 192) (a : Fin 788) :
    (((cfg0.win 8).blk t).view.read (Elt Ideal) A : Vec Ideal S192x788 .bf16) (ix2 k a) = A (ix2 k a) := by
  obtain ⟨-, -, -, -, -, -, -, -, -, -, -, -, e0, e1, -⟩ := idx_whole t
  rw [View.read_apply]
  show A _ = A _
  congr 1
  funext b
  apply Fin.ext
  match b with
  | ⟨0, _⟩ => show win0_8.index t (0 : Fin 2) * 192 + 1 * k.val = k.val; rw [e0]; omega
  | ⟨1, _⟩ => show win0_8.index t (1 : Fin 2) * 788 + 1 * a.val = a.val; rw [e1]; omega

/-- So window 8's block at every point is the array the region finds. -/
theorem iblk8_apply (c : Dev nD) (t : Fin cfg0.N) (k : Fin 192) (a : Fin 788) :
    (iblk m c 8 t : Vec Ideal S192x788 .bf16) (ix2 k a) = (V m c main_v42 : S192x788.Idx → EReal) (ix2 k a) :=
  blk8_read t (V m c main_v42) k a

/-- Window 9's block at every point is the whole [1, 788] array. -/
theorem blk9_read (t : Fin cfg0.N) (A : S1x788.Idx → EReal) (k : Fin 1) (a : Fin 788) :
    (((cfg0.win 9).blk t).view.read (Elt Ideal) A : Vec Ideal S1x788 .f32) (ix2 k a) = A (ix2 k a) := by
  obtain ⟨-, -, -, -, -, -, -, -, -, -, -, -, -, -, e0, e1⟩ := idx_whole t
  rw [View.read_apply]
  show A _ = A _
  congr 1
  funext b
  apply Fin.ext
  match b with
  | ⟨0, _⟩ => show win0_9.index t (0 : Fin 2) * 1 + 1 * k.val = k.val; rw [e0]; omega
  | ⟨1, _⟩ => show win0_9.index t (1 : Fin 2) * 788 + 1 * a.val = a.val; rw [e1]; omega

/-- So window 9's block at every point is the array the region finds. -/
theorem iblk9_apply (c : Dev nD) (t : Fin cfg0.N) (k : Fin 1) (a : Fin 788) :
    (iblk m c 9 t : Vec Ideal S1x788 .f32) (ix2 k a) = (V m c main_v46 : S1x788.Idx → EReal) (ix2 k a) :=
  blk9_read t (V m c main_v46) k a

/-! ## The output blocks: where they sit, and that they cover the arrays -/

/-- Row p of point t's block of output window 10 is row 1000 t + p of its array. -/
theorem emb10_apply (t : Fin cfg0.N) (p : Fin 1000) (j : Fin 788) :
    ((cfg0.win 10).blk t).view.emb (ix2 p j) = (ix2 (rowOf t p) j : S50000x788.Idx) := by
  obtain ⟨-, -, -, -, e0, e1, -⟩ := idx_rows t
  funext b
  apply Fin.ext
  match b with
  | ⟨0, _⟩ => show win0_10.index t (0 : Fin 2) * 1000 + 1 * p.val = t.val * 1000 + p.val; rw [e0]; omega
  | ⟨1, _⟩ => show win0_10.index t (1 : Fin 2) * 788 + 1 * j.val = j.val; rw [e1]; omega

/-- An index of the array is in point t's block iff each coordinate is in the block's range on its axis. -/
theorem mem_blk10 (t : Fin cfg0.N) (i : S50000x788.Idx) :
    i ∈ ((cfg0.win 10).blk t).view.set ↔ ∀ a : Fin 2, win0_10.index t a * S1000x788.size a ≤ (i a).val
      ∧ (i a).val < win0_10.index t a * S1000x788.size a + S1000x788.size a := by
  show i ∈ ((View.whole main_v47_0).slice (win0_10.rect t)).set ↔ _
  rw [View.set_slice_whole, Rect.mem_set_unit]
  exact Iff.rfl

/-- Every row of the array is in the block of the point its thousand names. -/
theorem cover10 (i : S50000x788.Idx) :
    ∃ t : Fin cfg0.N, (cfg0.win 10).flush t = true ∧ i ∈ ((cfg0.win 10).blk t).view.set := by
  have hN : cfg0.N = 50 := N_0
  have hi0 : (i 0).val < 50000 := (i 0).isLt
  have hi1 : (i 1).val < 788 := (i 1).isLt
  have ht : (i 0).val / 1000 < cfg0.N := by omega
  obtain ⟨-, -, -, -, e0, e1, -⟩ := idx_rows ⟨(i 0).val / 1000, ht⟩
  refine ⟨⟨(i 0).val / 1000, ht⟩, flush0_10 _, ?_⟩
  rw [mem_blk10]
  intro a
  match a with
  | ⟨0, _⟩ =>
    show win0_10.index ⟨(i 0).val / 1000, ht⟩ (0 : Fin 2) * 1000 ≤ (i 0).val
      ∧ (i 0).val < win0_10.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_10.index ⟨(i 0).val / 1000, ht⟩ (1 : Fin 2) * 788 ≤ (i 1).val
      ∧ (i 1).val < win0_10.index ⟨(i 0).val / 1000, ht⟩ (1 : Fin 2) * 788 + 788
    rw [e1]; omega

/-- Row p of point t's block of output window 11 is row 1000 t + p of its array. -/
theorem emb11_apply (t : Fin cfg0.N) (p : Fin 1000) (j : Fin 128) :
    ((cfg0.win 11).blk t).view.emb (ix2 p j) = (ix2 (rowOf t p) j : S50000x128.Idx) := by
  obtain ⟨-, -, -, -, -, -, e0, e1, -⟩ := idx_rows t
  funext b
  apply Fin.ext
  match b with
  | ⟨0, _⟩ => show win0_11.index t (0 : Fin 2) * 1000 + 1 * p.val = t.val * 1000 + p.val; rw [e0]; omega
  | ⟨1, _⟩ => show win0_11.index t (1 : Fin 2) * 128 + 1 * j.val = j.val; rw [e1]; omega

/-- An index of the array is in point t's block iff each coordinate is in the block's range on its axis. -/
theorem mem_blk11 (t : Fin cfg0.N) (i : S50000x128.Idx) :
    i ∈ ((cfg0.win 11).blk t).view.set ↔ ∀ a : Fin 2, win0_11.index t a * S1000x128.size a ≤ (i a).val
      ∧ (i a).val < win0_11.index t a * S1000x128.size a + S1000x128.size a := by
  show i ∈ ((View.whole main_v47_1).slice (win0_11.rect t)).set ↔ _
  rw [View.set_slice_whole, Rect.mem_set_unit]
  exact Iff.rfl

/-- Every row of the array is in the block of the point its thousand names. -/
theorem cover11 (i : S50000x128.Idx) :
    ∃ t : Fin cfg0.N, (cfg0.win 11).flush t = true ∧ i ∈ ((cfg0.win 11).blk t).view.set := by
  have hN : cfg0.N = 50 := N_0
  have hi0 : (i 0).val < 50000 := (i 0).isLt
  have hi1 : (i 1).val < 128 := (i 1).isLt
  have ht : (i 0).val / 1000 < cfg0.N := by omega
  obtain ⟨-, -, -, -, -, -, e0, e1, -⟩ := idx_rows ⟨(i 0).val / 1000, ht⟩
  refine ⟨⟨(i 0).val / 1000, ht⟩, flush0_11 _, ?_⟩
  rw [mem_blk11]
  intro a
  match a with
  | ⟨0, _⟩ =>
    show win0_11.index ⟨(i 0).val / 1000, ht⟩ (0 : Fin 2) * 1000 ≤ (i 0).val
      ∧ (i 0).val < win0_11.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_11.index ⟨(i 0).val / 1000, ht⟩ (1 : Fin 2) * 128 ≤ (i 1).val
      ∧ (i 1).val < win0_11.index ⟨(i 0).val / 1000, ht⟩ (1 : Fin 2) * 128 + 128
    rw [e1]; omega

/-- Row p of point t's block of output window 12 is row 1000 t + p of its array. -/
theorem emb12_apply (t : Fin cfg0.N) (p : Fin 1000) (j : Fin 788) :
    ((cfg0.win 12).blk t).view.emb (ix2 p j) = (ix2 (rowOf t p) j : S50000x788.Idx) := by
  obtain ⟨-, -, -, -, -, -, -, -, e0, e1⟩ := idx_rows t
  funext b
  apply Fin.ext
  match b with
  | ⟨0, _⟩ => show win0_12.index t (0 : Fin 2) * 1000 + 1 * p.val = t.val * 1000 + p.val; rw [e0]; omega
  | ⟨1, _⟩ => show win0_12.index t (1 : Fin 2) * 788 + 1 * j.val = j.val; rw [e1]; omega

/-- An index of the array is in point t's block iff each coordinate is in the block's range on its axis. -/
theorem mem_blk12 (t : Fin cfg0.N) (i : S50000x788.Idx) :
    i ∈ ((cfg0.win 12).blk t).view.set ↔ ∀ a : Fin 2, win0_12.index t a * S1000x788.size a ≤ (i a).val
      ∧ (i a).val < win0_12.index t a * S1000x788.size a + S1000x788.size a := by
  show i ∈ ((View.whole main_v47_2).slice (win0_12.rect t)).set ↔ _
  rw [View.set_slice_whole, Rect.mem_set_unit]
  exact Iff.rfl

/-- Every row of the array is in the block of the point its thousand names. -/
theorem cover12 (i : S50000x788.Idx) :
    ∃ t : Fin cfg0.N, (cfg0.win 12).flush t = true ∧ i ∈ ((cfg0.win 12).blk t).view.set := by
  have hN : cfg0.N = 50 := N_0
  have hi0 : (i 0).val < 50000 := (i 0).isLt
  have hi1 : (i 1).val < 788 := (i 1).isLt
  have ht : (i 0).val / 1000 < cfg0.N := by omega
  obtain ⟨-, -, -, -, -, -, -, -, e0, e1⟩ := idx_rows ⟨(i 0).val / 1000, ht⟩
  refine ⟨⟨(i 0).val / 1000, ht⟩, flush0_12 _, ?_⟩
  rw [mem_blk12]
  intro a
  match a with
  | ⟨0, _⟩ =>
    show win0_12.index ⟨(i 0).val / 1000, ht⟩ (0 : Fin 2) * 1000 ≤ (i 0).val
      ∧ (i 0).val < win0_12.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_12.index ⟨(i 0).val / 1000, ht⟩ (1 : Fin 2) * 788 ≤ (i 1).val
      ∧ (i 1).val < win0_12.index ⟨(i 0).val / 1000, ht⟩ (1 : Fin 2) * 788 + 788
    rw [e1]; omega

end Cert.KernelIdeal.Blocks

end
-- ==== Proof.KernelBlocks.lean ====
/-
  From blocks to the arrays: each of the kernel's three output arrays after the run, as one function of the arrays the
  region finds.

  The grid has 50 points; point t reads rows 1000 t … 1000 t + 999 of the feature table and of the aggregate table and
  the whole of every weight and bias, and writes back rows 1000 t … 1000 t + 999 of the embedding table, of the encoder's
  output and of the decoder's output. Every entry of a row of these three depends on that row of the two tables only
  (the row-locality lemmas of the specification), so what point t writes is block t of the function of the WHOLE tables;
  the 50 blocks cover the 50000 rows, so each output array ends holding that function.
-/
import proofs.«148973_j77421080477948_2_alg».proof.Proof.Gen.KernelIdeal.Value
import proofs.«148973_j77421080477948_2_alg».proof.Proof.KernelPayload
import proofs.«148973_j77421080477948_2_alg».proof.Proof.KernelBlockReads
import proofs.«148973_j77421080477948_2_alg».proof.Proof.Spec
import Idealize.ShloMosaic.Lib.Pipeline.Value

noncomputable section

namespace Cert.KernelIdeal.Blocks

open Cert.KernelIdeal Cert.KernelIdeal.Gen Cert.KernelIdeal.Value Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ)

/-! ## The three arrays as functions of the arrays the region finds -/

/-- The embedding table: row r is node r's features with feature 0 replaced by zero, then its aggregated features. -/
def Gemb (c : Dev nD) : S50000x788.Idx → EReal := fun i =>
  Cert.Spec.embAt (Cert.Spec.cur (V m c main_arg0 : S50000x394.Idx → EReal))
    (Cert.Spec.cur (V m c main_v38 : S50000x394.Idx → EReal)) (i 0) (i 1)

/-- The encoder's output on the embedding table. -/
def Genc (c : Dev nD) : S50000x128.Idx → EReal := fun i =>
  Cert.Spec.encOf (Cert.Spec.cur (V m c main_v39 : S788x192.Idx → EReal)) (Cert.Spec.curRow (V m c main_v43 : S1x192.Idx → EReal))
    (Cert.Spec.cur (V m c main_v40 : S192x128.Idx → EReal)) (Cert.Spec.curRow (V m c main_v44 : S1x128.Idx → EReal))
    (Cert.Spec.embAt (Cert.Spec.cur (V m c main_arg0 : S50000x394.Idx → EReal))
      (Cert.Spec.cur (V m c main_v38 : S50000x394.Idx → EReal))) (i 0) (i 1)

/-- The decoder's output on the encoder's output. -/
def Gdec (c : Dev nD) : S50000x788.Idx → EReal := fun i =>
  Cert.Spec.decOf (Cert.Spec.cur (V m c main_v41 : S128x192.Idx → EReal)) (Cert.Spec.curRow (V m c main_v45 : S1x192.Idx → EReal))
    (Cert.Spec.cur (V m c main_v42 : S192x788.Idx → EReal)) (Cert.Spec.curRow (V m c main_v46 : S1x788.Idx → EReal))
    (Cert.Spec.encOf (Cert.Spec.cur (V m c main_v39 : S788x192.Idx → EReal)) (Cert.Spec.curRow (V m c main_v43 : S1x192.Idx → EReal))
      (Cert.Spec.cur (V m c main_v40 : S192x128.Idx → EReal)) (Cert.Spec.curRow (V m c main_v44 : S1x128.Idx → EReal))
      (Cert.Spec.embAt (Cert.Spec.cur (V m c main_arg0 : S50000x394.Idx → EReal))
        (Cert.Spec.cur (V m c main_v38 : S50000x394.Idx → EReal)))) (i 0) (i 1)

/-- A rectangle at offset (0, 0) is at the zero offset. -/
theorem hz : (![0, 0] : Fin 2 → Nat) = fun _ => 0 := funext fun a => by fin_cases a <;> rfl

/-! ## Output window 10: the embedding table -/

/-- The embedding block of blocks that are rows e(·) of two tables is rows e(·) of the tables' embedding table. -/
theorem emb_block (x0 x1 : Vec Ideal S1000x394 .f32) (feat agg : S50000x394.Idx → EReal) (e : Fin 1000 → Fin 50000)
    (h0 : ∀ p q, x0 (ix2 p q) = feat (ix2 (e p) q)) (h1 : ∀ p q, x1 (ix2 p q) = agg (ix2 (e p) q))
    (p : Fin 1000) (j : Fin 788) :
    k0_pay2 (F := Ideal) x0 x1 (ix2 p j) = Cert.Spec.embAt (Cert.Spec.cur feat) (Cert.Spec.cur agg) (e p) j := by
  rw [Pay.pay2_apply]
  have e0 : Cert.Spec.cur x0 = fun r => Cert.Spec.cur feat (e r) := funext fun r => funext fun q => h0 r q
  have e1 : Cert.Spec.cur x1 = fun r => Cert.Spec.cur agg (e r) := funext fun r => funext fun q => h1 r q
  rw [e0, e1]
  exact Cert.Spec.embAt_rows e (Cert.Spec.cur feat) (Cert.Spec.cur agg) p j

/-- What point t writes back is block t of the embedding table of the whole tables. -/
theorem flushed10_eq (c : Dev nD) (t : Fin cfg0.N) :
    (dats m 0 c).flushed 10 t = ((cfg0.win 10).blk t).view.read (Elt Ideal) (Gemb m c) := by
  rw [Value.flushed10]
  unfold out0_10
  rw [View.canon_unit_zero hz]
  simp only [View.ld_unit_zero (S := S1000x394) hz]
  refine funext fun (y : S1000x788.Idx) => ?_
  obtain ⟨p, j, rfl⟩ : ∃ (p : Fin 1000) (j : Fin 788), y = ix2 p j := ⟨y 0, y 1, eq_ix2 y⟩
  refine (emb_block (iblk m c 0 t) (iblk m c 1 t) (V m c main_arg0) (V m c main_v38) (rowOf t)
    (iblk0_apply m c t) (iblk1_apply m c t) p j).trans ?_
  show _ = Gemb m c (((cfg0.win 10).blk t).view.emb (ix2 p j))
  rw [emb10_apply t p j]
  rfl

/-- The embedding array after the run is the embedding table of the tables the region finds. -/
theorem final10 (c : Dev nD) : (dats m 0 c).arrAt 10 cfg0.N = Gemb m c :=
  (dats m 0 c).arrAt_eq_of_cover 10 (Gemb m c) (fun t _ => flushed10_eq m c t) cover10

/-! ## Output window 11: the encoder's output -/

/-- The encoder block of blocks that are rows e(·) of the two tables, under the whole weights and biases, is rows e(·)
    of the encoder's output on the tables' embedding table. -/
theorem enc_block (x0 x1 : Vec Ideal S1000x394 .f32) (x2 : Vec Ideal S788x192 .bf16) (x3 : Vec Ideal S1x192 .f32)
    (x4 : Vec Ideal S192x128 .bf16) (x5 : Vec Ideal S1x128 .f32)
    (feat agg : S50000x394.Idx → EReal) (W1 : S788x192.Idx → EReal) (b1 : S1x192.Idx → EReal)
    (W3 : S192x128.Idx → EReal) (b3 : S1x128.Idx → EReal) (e : Fin 1000 → Fin 50000)
    (h0 : ∀ p q, x0 (ix2 p q) = feat (ix2 (e p) q)) (h1 : ∀ p q, x1 (ix2 p q) = agg (ix2 (e p) q))
    (h2 : ∀ k a, x2 (ix2 k a) = W1 (ix2 k a)) (h3 : ∀ a, x3 (ix2 (0 : Fin 1) a) = b1 (ix2 (0 : Fin 1) a))
    (h4 : ∀ k a, x4 (ix2 k a) = W3 (ix2 k a)) (h5 : ∀ a, x5 (ix2 (0 : Fin 1) a) = b3 (ix2 (0 : Fin 1) a))
    (p : Fin 1000) (a : Fin 128) :
    k0_pay3 (F := Ideal) x0 x1 x2 x3 x4 x5 (ix2 p a)
      = Cert.Spec.encOf (Cert.Spec.cur W1) (Cert.Spec.curRow b1) (Cert.Spec.cur W3) (Cert.Spec.curRow b3)
          (Cert.Spec.embAt (Cert.Spec.cur feat) (Cert.Spec.cur agg)) (e p) a := by
  rw [Pay.pay3_apply]
  have eX : Cert.Spec.cur (k0_pay2 (F := Ideal) x0 x1)
      = fun r => Cert.Spec.embAt (Cert.Spec.cur feat) (Cert.Spec.cur agg) (e r) :=
    funext fun r => funext fun j => emb_block x0 x1 feat agg e h0 h1 r j
  have e2 : Cert.Spec.cur x2 = Cert.Spec.cur W1 := funext fun k => funext fun a => h2 k a
  have e3 : Cert.Spec.curRow x3 = Cert.Spec.curRow b1 := funext fun a => h3 a
  have e4 : Cert.Spec.cur x4 = Cert.Spec.cur W3 := funext fun k => funext fun a => h4 k a
  have e5 : Cert.Spec.curRow x5 = Cert.Spec.curRow b3 := funext fun a => h5 a
  rw [eX, e2, e3, e4, e5]
  exact Cert.Spec.encOf_rows e (Cert.Spec.cur W1) (Cert.Spec.curRow b1) (Cert.Spec.cur W3) (Cert.Spec.curRow b3)
    (Cert.Spec.embAt (Cert.Spec.cur feat) (Cert.Spec.cur agg)) p a

/-- What point t writes back is block t of the encoder's output on the whole tables. -/
theorem flushed11_eq (c : Dev nD) (t : Fin cfg0.N) :
    (dats m 0 c).flushed 11 t = ((cfg0.win 11).blk t).view.read (Elt Ideal) (Genc m c) := by
  rw [Value.flushed11]
  unfold out0_11
  rw [View.canon_unit_zero hz]
  simp only [View.ld_unit_zero (S := S1000x394) hz, View.ld_unit_zero (S := S788x192) hz, View.ld_unit_zero (S := S1x192) hz,
    View.ld_unit_zero (S := S192x128) hz, View.ld_unit_zero (S := S1x128) hz]
  refine funext fun (y : S1000x128.Idx) => ?_
  obtain ⟨p, a, rfl⟩ : ∃ (p : Fin 1000) (a : Fin 128), y = ix2 p a := ⟨y 0, y 1, eq_ix2 y⟩
  refine (enc_block (iblk m c 0 t) (iblk m c 1 t) (iblk m c 2 t) (iblk m c 3 t) (iblk m c 4 t) (iblk m c 5 t)
    (V m c main_arg0) (V m c main_v38) (V m c main_v39) (V m c main_v43) (V m c main_v40) (V m c main_v44) (rowOf t)
    (iblk0_apply m c t) (iblk1_apply m c t) (iblk2_apply m c t) (iblk3_apply m c t 0) (iblk4_apply m c t)
    (iblk5_apply m c t 0) p a).trans ?_
  show _ = Genc m c (((cfg0.win 11).blk t).view.emb (ix2 p a))
  rw [emb11_apply t p a]
  rfl

/-- The encoder's array after the run is the encoder's output on the tables the region finds. -/
theorem final11 (c : Dev nD) : (dats m 0 c).arrAt 11 cfg0.N = Genc m c :=
  (dats m 0 c).arrAt_eq_of_cover 11 (Genc m c) (fun t _ => flushed11_eq m c t) cover11

/-! ## Output window 12: the decoder's output -/

/-- The decoder block of the same blocks, under the whole weights and biases, is rows e(·) of the decoder's output on
    the encoder's output on the tables' embedding table. -/
theorem dec_block (x0 x1 : Vec Ideal S1000x394 .f32) (x2 : Vec Ideal S788x192 .bf16) (x3 : Vec Ideal S1x192 .f32)
    (x4 : Vec Ideal S192x128 .bf16) (x5 : Vec Ideal S1x128 .f32) (x6 : Vec Ideal S128x192 .bf16) (x7 : Vec Ideal S1x192 .f32)
    (x8 : Vec Ideal S192x788 .bf16) (x9 : Vec Ideal S1x788 .f32)
    (feat agg : S50000x394.Idx → EReal) (W1 : S788x192.Idx → EReal) (b1 : S1x192.Idx → EReal)
    (W3 : S192x128.Idx → EReal) (b3 : S1x128.Idx → EReal) (Wd1 : S128x192.Idx → EReal) (bd1 : S1x192.Idx → EReal)
    (Wd3 : S192x788.Idx → EReal) (bd3 : S1x788.Idx → EReal) (e : Fin 1000 → Fin 50000)
    (h0 : ∀ p q, x0 (ix2 p q) = feat (ix2 (e p) q)) (h1 : ∀ p q, x1 (ix2 p q) = agg (ix2 (e p) q))
    (h2 : ∀ k a, x2 (ix2 k a) = W1 (ix2 k a)) (h3 : ∀ a, x3 (ix2 (0 : Fin 1) a) = b1 (ix2 (0 : Fin 1) a))
    (h4 : ∀ k a, x4 (ix2 k a) = W3 (ix2 k a)) (h5 : ∀ a, x5 (ix2 (0 : Fin 1) a) = b3 (ix2 (0 : Fin 1) a))
    (h6 : ∀ k a, x6 (ix2 k a) = Wd1 (ix2 k a)) (h7 : ∀ a, x7 (ix2 (0 : Fin 1) a) = bd1 (ix2 (0 : Fin 1) a))
    (h8 : ∀ k a, x8 (ix2 k a) = Wd3 (ix2 k a)) (h9 : ∀ a, x9 (ix2 (0 : Fin 1) a) = bd3 (ix2 (0 : Fin 1) a))
    (p : Fin 1000) (j : Fin 788) :
    k0_pay1 (F := Ideal) (k0_pay4 (F := Ideal) x0 x1 x2 x3 x4 x5 x6) x7 x8 x9 (ix2 p j)
      = Cert.Spec.decOf (Cert.Spec.cur Wd1) (Cert.Spec.curRow bd1) (Cert.Spec.cur Wd3) (Cert.Spec.curRow bd3)
          (Cert.Spec.encOf (Cert.Spec.cur W1) (Cert.Spec.curRow b1) (Cert.Spec.cur W3) (Cert.Spec.curRow b3)
            (Cert.Spec.embAt (Cert.Spec.cur feat) (Cert.Spec.cur agg))) (e p) j := by
  rw [Pay.pay1_apply]
  have eE : Cert.Spec.cur (k0_pay3 (F := Ideal) x0 x1 x2 x3 x4 x5)
      = fun r => Cert.Spec.encOf (Cert.Spec.cur W1) (Cert.Spec.curRow b1) (Cert.Spec.cur W3) (Cert.Spec.curRow b3)
          (Cert.Spec.embAt (Cert.Spec.cur feat) (Cert.Spec.cur agg)) (e r) :=
    funext fun r => funext fun a => enc_block x0 x1 x2 x3 x4 x5 feat agg W1 b1 W3 b3 e h0 h1 h2 h3 h4 h5 r a
  have e6 : Cert.Spec.cur x6 = Cert.Spec.cur Wd1 := funext fun k => funext fun a => h6 k a
  have e7 : Cert.Spec.curRow x7 = Cert.Spec.curRow bd1 := funext fun a => h7 a
  have e8 : Cert.Spec.cur x8 = Cert.Spec.cur Wd3 := funext fun k => funext fun a => h8 k a
  have e9 : Cert.Spec.curRow x9 = Cert.Spec.curRow bd3 := funext fun a => h9 a
  rw [eE, e6, e7, e8, e9]
  exact Cert.Spec.decOf_rows e (Cert.Spec.cur Wd1) (Cert.Spec.curRow bd1) (Cert.Spec.cur Wd3) (Cert.Spec.curRow bd3)
    (Cert.Spec.encOf (Cert.Spec.cur W1) (Cert.Spec.curRow b1) (Cert.Spec.cur W3) (Cert.Spec.curRow b3)
      (Cert.Spec.embAt (Cert.Spec.cur feat) (Cert.Spec.cur agg))) p j

/-- What point t writes back is block t of the decoder's output on the whole tables. -/
theorem flushed12_eq (c : Dev nD) (t : Fin cfg0.N) :
    (dats m 0 c).flushed 12 t = ((cfg0.win 12).blk t).view.read (Elt Ideal) (Gdec m c) := by
  rw [Value.flushed12]
  unfold out0_12
  rw [View.canon_unit_zero hz]
  simp only [View.ld_unit_zero (S := S1000x394) hz, View.ld_unit_zero (S := S788x192) hz, View.ld_unit_zero (S := S1x192) hz,
    View.ld_unit_zero (S := S192x128) hz, View.ld_unit_zero (S := S1x128) hz, View.ld_unit_zero (S := S128x192) hz,
    View.ld_unit_zero (S := S192x788) hz, View.ld_unit_zero (S := S1x788) hz]
  refine funext fun (y : S1000x788.Idx) => ?_
  obtain ⟨p, j, rfl⟩ : ∃ (p : Fin 1000) (j : Fin 788), y = ix2 p j := ⟨y 0, y 1, eq_ix2 y⟩
  refine (dec_block (iblk m c 0 t) (iblk m c 1 t) (iblk m c 2 t) (iblk m c 3 t) (iblk m c 4 t) (iblk m c 5 t)
    (iblk m c 6 t) (iblk m c 7 t) (iblk m c 8 t) (iblk m c 9 t)
    (V m c main_arg0) (V m c main_v38) (V m c main_v39) (V m c main_v43) (V m c main_v40) (V m c main_v44)
    (V m c main_v41) (V m c main_v45) (V m c main_v42) (V m c main_v46) (rowOf t)
    (iblk0_apply m c t) (iblk1_apply m c t) (iblk2_apply m c t) (iblk3_apply m c t 0) (iblk4_apply m c t)
    (iblk5_apply m c t 0) (iblk6_apply m c t) (iblk7_apply m c t 0) (iblk8_apply m c t) (iblk9_apply m c t 0) p j).trans ?_
  show _ = Gdec m c (((cfg0.win 12).blk t).view.emb (ix2 p j))
  rw [emb12_apply t p j]
  rfl

/-- The decoder's array after the run is the decoder's output on the tables the region finds. -/
theorem final12 (c : Dev nD) : (dats m 0 c).arrAt 12 cfg0.N = Gdec m c :=
  (dats m 0 c).arrAt_eq_of_cover 12 (Gdec m c) (fun t _ => flushed12_eq m c t) cover12

end Cert.KernelIdeal.Blocks

end
-- ==== Proof.RefStages.lean ====
/-
  The reference program's buffers after its run.

  The run leaves every buffer at the fold of the program's operations over the launch contents. Read back, the three
  result buffers hold the program's stages — the embedding, the encoder's output and the decoder's output as functions of
  the argument arrays — and the argument buffers hold what they were launched with. The fold is read in two parts, cut
  where the embedding's two halves are joined: up to there the second aggregate (and every argument) is read off the first
  53 operations; from there on the remaining operations are read over whatever the first part left.
-/
import proofs.«148973_j77421080477948_2_alg».proof.Proof.RefRunP
import proofs.«148973_j77421080477948_2_alg».proof.Proof.RefReadP

noncomputable section

namespace Cert.ReferenceIdeal.RefStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- Operations applied one list after another are the concatenated list applied. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

variable (m : (ℓ : Loc nD τ sig) → Buf (Elt Ideal) ℓ)

/-! ## The first 53 operations: the second aggregate, and the arguments untouched -/

set_option maxHeartbeats 4000000 in
theorem pre_v38 (c : Dev nD) :
    (after ((ops (F := Ideal)).take 53) (launchContents m c) (Proc.devRef .tc main_v38) : S50000x394.Idx → EReal)
      = val_main_v38 (F := Ideal) (m ((c.tc : Thread nD τ).loc main_arg0)) (m ((c.tc : Thread nD τ).loc main_arg1)) (m ((c.tc : Thread nD τ).loc main_arg2)) := by
  simp only [ops, List.take_succ_cons, List.take_zero]
  after_results_simp
  rfl

set_option maxHeartbeats 4000000 in
theorem pre_arg0 (c : Dev nD) :
    after ((ops (F := Ideal)).take 53) (launchContents m c) (Proc.devRef .tc main_arg0) = m ((c.tc : Thread nD τ).loc main_arg0) := by
  simp only [ops, List.take_succ_cons, List.take_zero]
  after_results_simp

set_option maxHeartbeats 4000000 in
theorem pre_arg3 (c : Dev nD) :
    after ((ops (F := Ideal)).take 53) (launchContents m c) (Proc.devRef .tc main_arg3) = m ((c.tc : Thread nD τ).loc main_arg3) := by
  simp only [ops, List.take_succ_cons, List.take_zero]
  after_results_simp

set_option maxHeartbeats 4000000 in
theorem pre_arg4 (c : Dev nD) :
    after ((ops (F := Ideal)).take 53) (launchContents m c) (Proc.devRef .tc main_arg4) = m ((c.tc : Thread nD τ).loc main_arg4) := by
  simp only [ops, List.take_succ_cons, List.take_zero]
  after_results_simp

set_option maxHeartbeats 4000000 in
theorem pre_arg5 (c : Dev nD) :
    after ((ops (F := Ideal)).take 53) (launchContents m c) (Proc.devRef .tc main_arg5) = m ((c.tc : Thread nD τ).loc main_arg5) := by
  simp only [ops, List.take_succ_cons, List.take_zero]
  after_results_simp

set_option maxHeartbeats 4000000 in
theorem pre_arg6 (c : Dev nD) :
    after ((ops (F := Ideal)).take 53) (launchContents m c) (Proc.devRef .tc main_arg6) = m ((c.tc : Thread nD τ).loc main_arg6) := by
  simp only [ops, List.take_succ_cons, List.take_zero]
  after_results_simp

set_option maxHeartbeats 4000000 in
theorem pre_arg7 (c : Dev nD) :
    after ((ops (F := Ideal)).take 53) (launchContents m c) (Proc.devRef .tc main_arg7) = m ((c.tc : Thread nD τ).loc main_arg7) := by
  simp only [ops, List.take_succ_cons, List.take_zero]
  after_results_simp

set_option maxHeartbeats 4000000 in
theorem pre_arg8 (c : Dev nD) :
    after ((ops (F := Ideal)).take 53) (launchContents m c) (Proc.devRef .tc main_arg8) = m ((c.tc : Thread nD τ).loc main_arg8) := by
  simp only [ops, List.take_succ_cons, List.take_zero]
  after_results_simp

set_option maxHeartbeats 4000000 in
theorem pre_arg9 (c : Dev nD) :
    after ((ops (F := Ideal)).take 53) (launchContents m c) (Proc.devRef .tc main_arg9) = m ((c.tc : Thread nD τ).loc main_arg9) := by
  simp only [ops, List.take_succ_cons, List.take_zero]
  after_results_simp

set_option maxHeartbeats 4000000 in
theorem pre_arg10 (c : Dev nD) :
    after ((ops (F := Ideal)).take 53) (launchContents m c) (Proc.devRef .tc main_arg10) = m ((c.tc : Thread nD τ).loc main_arg10) := by
  simp only [ops, List.take_succ_cons, List.take_zero]
  after_results_simp

/-! ## The results -/

set_option maxHeartbeats 4000000 in
/-- The embedding buffer after the run is its stage. -/
theorem after_v45 (c : Dev nD) :
    (after ops (launchContents m c) (Proc.devRef .tc main_v45) : S50000x788.Idx → EReal)
      = val_main_v45 (F := Ideal) (m ((c.tc : Thread nD τ).loc main_arg0)) (m ((c.tc : Thread nD τ).loc main_arg1)) (m ((c.tc : Thread nD τ).loc main_arg2)) := by
  have h38 := pre_v38 m c
  have h0 := pre_arg0 m c
  rw [← List.take_append_drop 53 (ops (F := Ideal)), after_append]
  generalize after ((ops (F := Ideal)).take 53) (launchContents m c) = W at h38 h0 ⊢
  simp only [ops, List.drop_succ_cons, List.drop_zero]
  after_results_simp
  rw [h38, h0]
  rfl

set_option maxHeartbeats 8000000 in
/-- The encoder's output buffer after the run is its stage. -/
theorem after_v54 (c : Dev nD) :
    (after ops (launchContents m c) (Proc.devRef .tc main_v54) : S50000x128.Idx → EReal)
      = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have h38 := pre_v38 m c
  have h0 := pre_arg0 m c
  have h3 := pre_arg3 m c
  have h4 := pre_arg4 m c
  have h5 := pre_arg5 m c
  have h6 := pre_arg6 m c
  rw [← List.take_append_drop 53 (ops (F := Ideal)), after_append]
  generalize after ((ops (F := Ideal)).take 53) (launchContents m c) = W at h38 h0 h3 h4 h5 h6 ⊢
  simp only [ops, List.drop_succ_cons, List.drop_zero]
  after_results_simp
  rw [h38, h0, h3, h4, h5, h6]
  rfl

set_option maxHeartbeats 8000000 in
/-- The decoder's output buffer after the run is its stage. -/
theorem after_v63 (c : Dev nD) :
    (after ops (launchContents m c) (Proc.devRef .tc main_v63) : S50000x788.Idx → EReal)
      = val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have h38 := pre_v38 m c
  have h0 := pre_arg0 m c
  have h3 := pre_arg3 m c
  have h4 := pre_arg4 m c
  have h5 := pre_arg5 m c
  have h6 := pre_arg6 m c
  have h7 := pre_arg7 m c
  have h8 := pre_arg8 m c
  have h9 := pre_arg9 m c
  have h10 := pre_arg10 m c
  rw [← List.take_append_drop 53 (ops (F := Ideal)), after_append]
  generalize after ((ops (F := Ideal)).take 53) (launchContents m c) = W at h38 h0 h3 h4 h5 h6 h7 h8 h9 h10 ⊢
  simp only [ops, List.drop_succ_cons, List.drop_zero]
  after_results_simp
  rw [h38, h0, h3, h4, h5, h6, h7, h8, h9, h10]
  rfl

/-! ## The arguments, unchanged by the whole run -/

set_option maxHeartbeats 4000000 in
theorem after_arg0 (c : Dev nD) :
    after (ops (F := Ideal)) (launchContents m c) (Proc.devRef .tc main_arg0) = m ((c.tc : Thread nD τ).loc main_arg0) := by
  after_results_simp

set_option maxHeartbeats 4000000 in
theorem after_arg1 (c : Dev nD) :
    after (ops (F := Ideal)) (launchContents m c) (Proc.devRef .tc main_arg1) = m ((c.tc : Thread nD τ).loc main_arg1) := by
  after_results_simp

set_option maxHeartbeats 4000000 in
theorem after_arg2 (c : Dev nD) :
    after (ops (F := Ideal)) (launchContents m c) (Proc.devRef .tc main_arg2) = m ((c.tc : Thread nD τ).loc main_arg2) := by
  after_results_simp

set_option maxHeartbeats 4000000 in
theorem after_arg3 (c : Dev nD) :
    after (ops (F := Ideal)) (launchContents m c) (Proc.devRef .tc main_arg3) = m ((c.tc : Thread nD τ).loc main_arg3) := by
  after_results_simp

set_option maxHeartbeats 4000000 in
theorem after_arg4 (c : Dev nD) :
    after (ops (F := Ideal)) (launchContents m c) (Proc.devRef .tc main_arg4) = m ((c.tc : Thread nD τ).loc main_arg4) := by
  after_results_simp

set_option maxHeartbeats 4000000 in
theorem after_arg5 (c : Dev nD) :
    after (ops (F := Ideal)) (launchContents m c) (Proc.devRef .tc main_arg5) = m ((c.tc : Thread nD τ).loc main_arg5) := by
  after_results_simp

set_option maxHeartbeats 4000000 in
theorem after_arg6 (c : Dev nD) :
    after (ops (F := Ideal)) (launchContents m c) (Proc.devRef .tc main_arg6) = m ((c.tc : Thread nD τ).loc main_arg6) := by
  after_results_simp

set_option maxHeartbeats 4000000 in
theorem after_arg7 (c : Dev nD) :
    after (ops (F := Ideal)) (launchContents m c) (Proc.devRef .tc main_arg7) = m ((c.tc : Thread nD τ).loc main_arg7) := by
  after_results_simp

set_option maxHeartbeats 4000000 in
theorem after_arg8 (c : Dev nD) :
    after (ops (F := Ideal)) (launchContents m c) (Proc.devRef .tc main_arg8) = m ((c.tc : Thread nD τ).loc main_arg8) := by
  after_results_simp

set_option maxHeartbeats 4000000 in
theorem after_arg9 (c : Dev nD) :
    after (ops (F := Ideal)) (launchContents m c) (Proc.devRef .tc main_arg9) = m ((c.tc : Thread nD τ).loc main_arg9) := by
  after_results_simp

set_option maxHeartbeats 4000000 in
theorem after_arg10 (c : Dev nD) :
    after (ops (F := Ideal)) (launchContents m c) (Proc.devRef .tc main_arg10) = m ((c.tc : Thread nD τ).loc main_arg10) := by
  after_results_simp

end Cert.ReferenceIdeal.RefStages

end
-- ==== Proof.RefMlp.lean ====
/-
  The reference program's autoencoder, read entry by entry.

  From the embedding matrix X (50000 rows of 788 entries) the reference computes
      h1 = max (X · W1 + b1) 0,   enc = h1 · W3 + b3,   h2 = max (enc · Wd1 + bd1) 0,   dec = h2 · Wd3 + bd3.
  Each product contracts the left operand's columns against the right operand's rows, each bias is a vector repeated
  along the rows, and each rectification is a maximum with a constant zero array. Over the extended reals the product's
  entry (r, a) is the exact sum over k of X (r, k) * W (k, a), the repeated bias at (r, a) is b a, and the constant is 0.
  So entry (r, a) of every stage is the matching affine layer of Cert.Spec at (r, a), and the two results are
  Cert.Spec.encOf and Cert.Spec.decOf of the embedding matrix.

  The embedding matrix is never opened: every statement below holds for whatever matrix stands in its place.
-/
import proofs.«148973_j77421080477948_2_alg».proof.Proof.RefReadP
import proofs.«148973_j77421080477948_2_alg».proof.Proof.Spec
import Idealize.ShloMosaic.Lib.ValueIdx
import Idealize.ShloMosaic.PureOps.Ideal.Laws

noncomputable section

namespace Cert.ReferenceIdeal.RefMlp

open Cert.ReferenceIdeal Cert.ReferenceIdeal.ReadP Idealize.ShloMosaic Idealize.ShloMosaic.ValueIdx

/-! ### Where each product and each repeated bias reads its operands, at an entry (r, a)

  A product's entry (r, a) reads the left operand at (r, k) and the right operand at (k, a); a bias repeated along the
  rows reads the vector at a. Each equation is checked coordinate by coordinate. -/

theorem lidx46 (r : Fin 50000) (a : Fin 192) (k : Fin 788) : lidx_main_v46 (ix2 r a) k = ix2 r k :=
  funext fun d => Fin.ext (by match d with | ⟨0, _⟩ => rfl | ⟨1, _⟩ => rfl)
theorem ridx46 (r : Fin 50000) (a : Fin 192) (k : Fin 788) : ridx_main_v46 (ix2 r a) k = ix2 k a :=
  funext fun d => Fin.ext (by match d with | ⟨0, _⟩ => rfl | ⟨1, _⟩ => rfl)
theorem bidx48 (r : Fin 50000) (a : Fin 192) : idx_main_v47 (idx_main_v48 (ix2 r a)) = ix1 a :=
  funext fun d => Fin.ext (by match d with | ⟨0, _⟩ => rfl)

theorem lidx51 (r : Fin 50000) (a : Fin 128) (k : Fin 192) : lidx_main_v51 (ix2 r a) k = ix2 r k :=
  funext fun d => Fin.ext (by match d with | ⟨0, _⟩ => rfl | ⟨1, _⟩ => rfl)
theorem ridx51 (r : Fin 50000) (a : Fin 128) (k : Fin 192) : ridx_main_v51 (ix2 r a) k = ix2 k a :=
  funext fun d => Fin.ext (by match d with | ⟨0, _⟩ => rfl | ⟨1, _⟩ => rfl)
theorem bidx53 (r : Fin 50000) (a : Fin 128) : idx_main_v52 (idx_main_v53 (ix2 r a)) = ix1 a :=
  funext fun d => Fin.ext (by match d with | ⟨0, _⟩ => rfl)

theorem lidx55 (r : Fin 50000) (a : Fin 192) (k : Fin 128) : lidx_main_v55 (ix2 r a) k = ix2 r k :=
  funext fun d => Fin.ext (by match d with | ⟨0, _⟩ => rfl | ⟨1, _⟩ => rfl)
theorem ridx55 (r : Fin 50000) (a : Fin 192) (k : Fin 128) : ridx_main_v55 (ix2 r a) k = ix2 k a :=
  funext fun d => Fin.ext (by match d with | ⟨0, _⟩ => rfl | ⟨1, _⟩ => rfl)
theorem bidx57 (r : Fin 50000) (a : Fin 192) : idx_main_v56 (idx_main_v57 (ix2 r a)) = ix1 a :=
  funext fun d => Fin.ext (by match d with | ⟨0, _⟩ => rfl)

theorem lidx60 (r : Fin 50000) (j : Fin 788) (k : Fin 192) : lidx_main_v60 (ix2 r j) k = ix2 r k :=
  funext fun d => Fin.ext (by match d with | ⟨0, _⟩ => rfl | ⟨1, _⟩ => rfl)
theorem ridx60 (r : Fin 50000) (j : Fin 788) (k : Fin 192) : ridx_main_v60 (ix2 r j) k = ix2 k j :=
  funext fun d => Fin.ext (by match d with | ⟨0, _⟩ => rfl | ⟨1, _⟩ => rfl)
theorem bidx62 (r : Fin 50000) (j : Fin 788) : idx_main_v61 (idx_main_v62 (ix2 r j)) = ix1 j :=
  funext fun d => Fin.ext (by match d with | ⟨0, _⟩ => rfl)

variable (x0 : (⟨S50000x394, .f32⟩ : BufTy).Contents (Elt Ideal)) (x1 x2 : (⟨S200000, .i32⟩ : BufTy).Contents (Elt Ideal))
  (x3 : (⟨S788x192, .f32⟩ : BufTy).Contents (Elt Ideal)) (x4 : (⟨S192, .f32⟩ : BufTy).Contents (Elt Ideal))
  (x5 : (⟨S192x128, .f32⟩ : BufTy).Contents (Elt Ideal)) (x6 : (⟨S128, .f32⟩ : BufTy).Contents (Elt Ideal))
  (x7 : (⟨S128x192, .f32⟩ : BufTy).Contents (Elt Ideal)) (x8 : (⟨S192, .f32⟩ : BufTy).Contents (Elt Ideal))
  (x9 : (⟨S192x788, .f32⟩ : BufTy).Contents (Elt Ideal)) (x10 : (⟨S788, .f32⟩ : BufTy).Contents (Elt Ideal))

/-! ### The encoder -/

/-- The first affine layer: entry (r, a) of X · W1 + b1 is the sum over k of X (r, k) * W1 (k, a), plus b1 a. -/
theorem v49_at (r : Fin 50000) (a : Fin 192) :
    val_main_v49 (F := Ideal) x0 x1 x2 x3 x4 (ix2 r a)
      = Cert.Spec.lin (Cert.Spec.cur (val_main_v45 (F := Ideal) x0 x1 x2)) (Cert.Spec.cur x3) (Cert.Spec.cur1 x4) r a := by
  rw [val_main_v49_apply, val_main_v46_apply, val_main_v48_apply, val_main_v47_apply, bidx48 r a]
  generalize val_main_v45 (F := Ideal) x0 x1 x2 = X
  refine congrArg (· + x4 (ix1 a)) (Finset.sum_congr rfl fun k _ => ?_)
  rw [lidx46 r a k, ridx46 r a k]
  rfl

/-- The first rectification: the maximum of the first affine layer and zero. -/
theorem v50_at (r : Fin 50000) (a : Fin 192) :
    val_main_v50 (F := Ideal) x0 x1 x2 x3 x4 (ix2 r a)
      = max (Cert.Spec.lin (Cert.Spec.cur (val_main_v45 (F := Ideal) x0 x1 x2)) (Cert.Spec.cur x3) (Cert.Spec.cur1 x4) r a) 0 := by
  rw [val_main_v50_apply, val_main_call0_v0_apply, val_main_call0_cst_apply, v49_at]
  simp only [Ideal.maximumf_def, Ideal.ofBits_def, Ideal.ofBits_zero_f32]

/-- The encoder's result: entry (r, a) of h1 · W3 + b3, where h1 is the rectified first layer. -/
theorem ref_enc (r : Fin 50000) (a : Fin 128) :
    val_main_v54 (F := Ideal) x0 x1 x2 x3 x4 x5 x6 (ix2 r a)
      = Cert.Spec.encOf (Cert.Spec.cur x3) (Cert.Spec.cur1 x4) (Cert.Spec.cur x5) (Cert.Spec.cur1 x6)
          (Cert.Spec.cur (val_main_v45 (F := Ideal) x0 x1 x2)) r a := by
  rw [val_main_v54_apply, val_main_v51_apply, val_main_v53_apply, val_main_v52_apply, bidx53 r a]
  refine congrArg (· + x6 (ix1 a)) (Finset.sum_congr rfl fun k _ => ?_)
  rw [lidx51 r a k, ridx51 r a k, v50_at]
  rfl

/-! ### The decoder -/

/-- The decoder's first affine layer, on the encoder's result. -/
theorem v58_at (r : Fin 50000) (a : Fin 192) :
    val_main_v58 (F := Ideal) x0 x1 x2 x3 x4 x5 x6 x7 x8 (ix2 r a)
      = Cert.Spec.lin
          (Cert.Spec.encOf (Cert.Spec.cur x3) (Cert.Spec.cur1 x4) (Cert.Spec.cur x5) (Cert.Spec.cur1 x6)
            (Cert.Spec.cur (val_main_v45 (F := Ideal) x0 x1 x2)))
          (Cert.Spec.cur x7) (Cert.Spec.cur1 x8) r a := by
  rw [val_main_v58_apply, val_main_v55_apply, val_main_v57_apply, val_main_v56_apply, bidx57 r a]
  refine congrArg (· + x8 (ix1 a)) (Finset.sum_congr rfl fun k _ => ?_)
  rw [lidx55 r a k, ridx55 r a k, ref_enc]
  rfl

/-- The decoder's rectification: the maximum of its first affine layer and zero. -/
theorem v59_at (r : Fin 50000) (a : Fin 192) :
    val_main_v59 (F := Ideal) x0 x1 x2 x3 x4 x5 x6 x7 x8 (ix2 r a)
      = max (Cert.Spec.lin
          (Cert.Spec.encOf (Cert.Spec.cur x3) (Cert.Spec.cur1 x4) (Cert.Spec.cur x5) (Cert.Spec.cur1 x6)
            (Cert.Spec.cur (val_main_v45 (F := Ideal) x0 x1 x2)))
          (Cert.Spec.cur x7) (Cert.Spec.cur1 x8) r a) 0 := by
  rw [val_main_v59_apply, val_main_call1_v0_apply, val_main_call1_cst_apply, v58_at]
  simp only [Ideal.maximumf_def, Ideal.ofBits_def, Ideal.ofBits_zero_f32]

/-- The decoder's result: entry (r, j) of h2 · Wd3 + bd3, where h2 is the decoder's rectified first layer. -/
theorem ref_dec (r : Fin 50000) (j : Fin 788) :
    val_main_v63 (F := Ideal) x0 x1 x2 x3 x4 x5 x6 x7 x8 x9 x10 (ix2 r j)
      = Cert.Spec.decOf (Cert.Spec.cur x7) (Cert.Spec.cur1 x8) (Cert.Spec.cur x9) (Cert.Spec.cur1 x10)
          (Cert.Spec.encOf (Cert.Spec.cur x3) (Cert.Spec.cur1 x4) (Cert.Spec.cur x5) (Cert.Spec.cur1 x6)
            (Cert.Spec.cur (val_main_v45 (F := Ideal) x0 x1 x2))) r j := by
  rw [val_main_v63_apply, val_main_v60_apply, val_main_v62_apply, val_main_v61_apply, bidx62 r j]
  refine congrArg (· + x10 (ix1 j)) (Finset.sum_congr rfl fun k _ => ?_)
  rw [lidx60 r j k, ridx60 r j k, v59_at]
  rfl

end Cert.ReferenceIdeal.RefMlp

end
-- ==== Proof.LibConcatContraction.lean ====
/-
  A contraction over a concatenated axis.

  Lay two [M, d] arrays X, Y side by side along the columns, and two [d, N] arrays U, W one above the other along the
  rows. Contracting the [M, d + d] array against the [d + d, N] array over the long axis gives, at entry (a, b),

      ∑ k < d + d, [X | Y] (a, k) · [U ; W] (k, b)  =  ∑ k < d, X (a, k) · U (k, b)  +  ∑ k < d, Y (a, k) · W (k, b):

  the first d terms read the first pieces, the last d terms the second pieces. Only the commutative-monoid laws of the
  sum are used, so the identity holds over the extended reals with no finiteness assumption.
-/
import Idealize.ShloMosaic.Lib.Pipeline.Value
import Idealize.ShloMosaic.Lib.ValueIdx

noncomputable section

namespace Cert.Lib

open Idealize.ShloMosaic Idealize.ShloMosaic.ValueIdx

variable {α : Type}

/-- Two [M, d] arrays side by side along the columns: column `k < d` of the long array is the first array's column `k`. -/
theorem concat_cols_left {M d D : Nat} (X Y : (⟨2, ![M, d]⟩ : Shape).Idx → α)
    (h : Shape.Concatenates [⟨2, ![M, d]⟩, ⟨2, ![M, d]⟩] ⟨2, ![M, D]⟩ 1) (a : Fin M) (k : Fin d) (k' : Fin D)
    (hk : k'.val = k.val) :
    concatenate ⟨2, ![M, D]⟩ 1 [⟨⟨2, ![M, d]⟩, X⟩, ⟨⟨2, ![M, d]⟩, Y⟩] h (ix2 a k') = X (ix2 a k) :=
  concatenate_pair_apply_left 1 X Y h (ix2 a k') rfl (ix2 a k) fun b => by
    match b with
    | ⟨0, _⟩ => rfl
    | ⟨1, _⟩ => exact hk.symm

/-- … and column `d + k` is the second array's column `k`. -/
theorem concat_cols_right {M d D : Nat} (X Y : (⟨2, ![M, d]⟩ : Shape).Idx → α)
    (h : Shape.Concatenates [⟨2, ![M, d]⟩, ⟨2, ![M, d]⟩] ⟨2, ![M, D]⟩ 1) (a : Fin M) (k : Fin d) (k' : Fin D)
    (hk : k'.val = d + k.val) :
    concatenate ⟨2, ![M, D]⟩ 1 [⟨⟨2, ![M, d]⟩, X⟩, ⟨⟨2, ![M, d]⟩, Y⟩] h (ix2 a k') = Y (ix2 a k) :=
  concatenate_pair_apply_right 1 X Y h (ix2 a k') rfl rfl (ix2 a k)
    (fun b hb => by
      match b, hb with
      | ⟨0, _⟩, _ => rfl
      | ⟨1, _⟩, hb => exact absurd rfl hb)
    (by show k.val + d = k'.val; omega)

/-- Two [d, N] arrays one above the other along the rows: row `k < d` of the tall array is the first array's row `k`. -/
theorem concat_rows_left {d D N : Nat} (U W : (⟨2, ![d, N]⟩ : Shape).Idx → α)
    (h : Shape.Concatenates [⟨2, ![d, N]⟩, ⟨2, ![d, N]⟩] ⟨2, ![D, N]⟩ 0) (b : Fin N) (k : Fin d) (k' : Fin D)
    (hk : k'.val = k.val) :
    concatenate ⟨2, ![D, N]⟩ 0 [⟨⟨2, ![d, N]⟩, U⟩, ⟨⟨2, ![d, N]⟩, W⟩] h (ix2 k' b) = U (ix2 k b) :=
  concatenate_pair_apply_left 0 U W h (ix2 k' b) rfl (ix2 k b) fun ax => by
    match ax with
    | ⟨0, _⟩ => exact hk.symm
    | ⟨1, _⟩ => rfl

/-- … and row `d + k` is the second array's row `k`. -/
theorem concat_rows_right {d D N : Nat} (U W : (⟨2, ![d, N]⟩ : Shape).Idx → α)
    (h : Shape.Concatenates [⟨2, ![d, N]⟩, ⟨2, ![d, N]⟩] ⟨2, ![D, N]⟩ 0) (b : Fin N) (k : Fin d) (k' : Fin D)
    (hk : k'.val = d + k.val) :
    concatenate ⟨2, ![D, N]⟩ 0 [⟨⟨2, ![d, N]⟩, U⟩, ⟨⟨2, ![d, N]⟩, W⟩] h (ix2 k' b) = W (ix2 k b) :=
  concatenate_pair_apply_right 0 U W h (ix2 k' b) rfl rfl (ix2 k b)
    (fun ax hax => by
      match ax, hax with
      | ⟨0, _⟩, hax => exact absurd rfl hax
      | ⟨1, _⟩, _ => rfl)
    (by show k.val + d = k'.val; omega)

/-- The contraction of `[X | Y]` against `[U ; W]` over the long axis is the contraction of `X` against `U` plus that of
    `Y` against `W`, entry by entry, in any commutative additive monoid with a product. -/
theorem sum_concat_contraction {β : Type} [AddCommMonoid β] [Mul β] {M d D N : Nat} (hD : D = d + d)
    (X Y : (⟨2, ![M, d]⟩ : Shape).Idx → β) (U W : (⟨2, ![d, N]⟩ : Shape).Idx → β)
    (hx : Shape.Concatenates [⟨2, ![M, d]⟩, ⟨2, ![M, d]⟩] ⟨2, ![M, D]⟩ 1)
    (hw : Shape.Concatenates [⟨2, ![d, N]⟩, ⟨2, ![d, N]⟩] ⟨2, ![D, N]⟩ 0) (a : Fin M) (b : Fin N) :
    ∑ k : Fin D, concatenate ⟨2, ![M, D]⟩ 1 [⟨⟨2, ![M, d]⟩, X⟩, ⟨⟨2, ![M, d]⟩, Y⟩] hx (ix2 a k)
        * concatenate ⟨2, ![D, N]⟩ 0 [⟨⟨2, ![d, N]⟩, U⟩, ⟨⟨2, ![d, N]⟩, W⟩] hw (ix2 k b)
      = ∑ k : Fin d, X (ix2 a k) * U (ix2 k b) + ∑ k : Fin d, Y (ix2 a k) * W (ix2 k b) := by
  subst hD
  rw [Fin.sum_univ_add]
  congr 1
  · refine Finset.sum_congr rfl fun k _ => ?_
    rw [concat_cols_left X Y hx a k (Fin.castAdd d k) rfl, concat_rows_left U W hw b k (Fin.castAdd d k) rfl]
  · refine Finset.sum_congr rfl fun k _ => ?_
    rw [concat_cols_right X Y hx a k (Fin.natAdd d k) rfl, concat_rows_right U W hw b k (Fin.natAdd d k) rfl]

end Cert.Lib

end
-- ==== Proof.RefHost.lean ====
/-
  The reference program's neighbour aggregation and embedding matrix, identified with the kernel program's arrays.

  With cnt(n) the number of edges into node n and inv = 1 / max(cnt, 1), one aggregation of a table h is
      agg h = (zeros, added along the destinations with the rows of h gathered at the sources) · inv   (row by row).
  The reference forms a = agg(features), overwrites column 0 of a with zeros (call the result g1), forms agg(g1) and
  overwrites its column 0 with zeros (g2), lays the features and g2 side by side as a table of 788 columns, and
  overwrites columns 0 and 394 of that table with zeros: the embedding matrix X.

  The kernel program applies the same aggregation, written over its own copies of the same shape records, and instead of
  overwriting column 0 multiplies by a mask that is 0 on column 0 and 1 elsewhere: h1 = agg(features) · mask and
  h2 = agg(h1). Entry by entry g1 = h1 (a product with 0 is 0, a product with 1 is the entry), and column 0 of h2 is
  already zero, so g2 = h2. Hence row r of X is: the features of r with feature 0 replaced by zero, then row r of h2 —
  column 394 of X is column 0 of h2, which is zero whether overwritten or not.
-/
import proofs.«148973_j77421080477948_2_alg».proof.Proof.RefReadP
import proofs.«148973_j77421080477948_2_alg».proof.Proof.KernelHost
import proofs.«148973_j77421080477948_2_alg».proof.Proof.LibColumnOps
import proofs.«148973_j77421080477948_2_alg».proof.Proof.LibConcatContraction
import proofs.«148973_j77421080477948_2_alg».proof.Proof.Spec
import Idealize.ShloMosaic.Lib.ValueIdx
import Idealize.ShloMosaic.PureOps.Ideal.Laws

noncomputable section

namespace Cert.ReferenceIdeal.RefHost

open Cert.ReferenceIdeal Cert.ReferenceIdeal.ReadP Idealize.ShloMosaic Idealize.ShloMosaic.ValueIdx

variable (x0 : (⟨S50000x394, .f32⟩ : BufTy).Contents (Elt Ideal)) (x1 x2 : (⟨S200000, .i32⟩ : BufTy).Contents (Elt Ideal))

/-! ### The aggregation is the same term in both programs

  The two programs state the same operations over shape records with the same fields, so each equation holds by
  unfolding the names on both sides; no indexed operation is opened. -/

/-- The source indices as the gather reads them. -/
theorem ref_srcIdx : val_main_v14 (F := Ideal) x1 = Cert.KernelIdeal.HostVal.srcIdx x1 := rfl

/-- The inverse degree, as a one-column table. -/
theorem ref_invDeg : val_main_v8 (F := Ideal) x2 = Cert.KernelIdeal.HostVal.invDeg x2 := rfl

/-- The first aggregate: the aggregation of the features. -/
theorem ref_agg : val_main_v20 (F := Ideal) x0 x1 x2 = Cert.KernelIdeal.HostVal.agg x0 x1 x2 := rfl

/-- The second aggregate, before its column 0 is overwritten: the aggregation of the first overwritten aggregate. -/
theorem v35_eq :
    val_main_v35 (F := Ideal) x0 x1 x2
      = Cert.KernelIdeal.HostVal.agg (val_main_v23 (F := Ideal) x0 x1 x2) x1 x2 := rfl

/-! ### The four overwrites of a column with zeros: their index words and their updates -/

theorem idx21 : BitVec.toInt (val_main_v21 (F := Ideal) (ix1 (0 : Fin 1))) = ((0 : ℕ) : ℤ) :=
  (congrArg BitVec.toInt ((val_main_v21_apply _).trans (val_main_c_5_apply _))).trans (by decide)
theorem upd22 (j : S50000.Idx) : val_main_v22 (F := Ideal) j = 0 :=
  ((val_main_v22_apply j).trans (val_main_cst_6_apply _)).trans Ideal.ofBits_zero_f32

theorem idx36 : BitVec.toInt (val_main_v36 (F := Ideal) (ix1 (0 : Fin 1))) = ((0 : ℕ) : ℤ) :=
  (congrArg BitVec.toInt ((val_main_v36_apply _).trans (val_main_c_10_apply _))).trans (by decide)
theorem upd37 (j : S50000.Idx) : val_main_v37 (F := Ideal) j = 0 :=
  ((val_main_v37_apply j).trans (val_main_cst_11_apply _)).trans Ideal.ofBits_zero_f32

theorem idx40 : BitVec.toInt (val_main_v40 (F := Ideal) (ix1 (0 : Fin 1))) = ((0 : ℕ) : ℤ) :=
  (congrArg BitVec.toInt ((val_main_v40_apply _).trans (val_main_c_12_apply _))).trans (by decide)
theorem upd41 (j : S50000.Idx) : val_main_v41 (F := Ideal) j = 0 :=
  ((val_main_v41_apply j).trans (val_main_cst_13_apply _)).trans Ideal.ofBits_zero_f32

theorem idx43 : BitVec.toInt (val_main_v43 (F := Ideal) (ix1 (0 : Fin 1))) = ((394 : ℕ) : ℤ) :=
  (congrArg BitVec.toInt ((val_main_v43_apply _).trans (val_main_c_14_apply _))).trans (by decide)
theorem upd44 (j : S50000.Idx) : val_main_v44 (F := Ideal) j = 0 :=
  ((val_main_v44_apply j).trans (val_main_cst_15_apply _)).trans Ideal.ofBits_zero_f32

/-- The first aggregate with column 0 overwritten, at (r, c): zero on column 0, the aggregate elsewhere. -/
theorem v23_at (r : Fin 50000) (c : Fin 394) :
    val_main_v23 (F := Ideal) x0 x1 x2 (ix2 r c)
      = if c.val = 0 then 0 else val_main_v20 (F := Ideal) x0 x1 x2 (ix2 r c) :=
  Cert.Lib.colSet_const_apply scatter_S50000x394_S1_S50000_0_1_1_0 rfl rfl rfl rfl
    (val_main_v20 (F := Ideal) x0 x1 x2) (val_main_v21 (F := Ideal)) 0 idx21 (by omega)
    (val_main_v22 (F := Ideal)) 0 upd22 (ix2 r c)

/-- The second aggregate with column 0 overwritten, at (r, c). -/
theorem v38_at (r : Fin 50000) (c : Fin 394) :
    val_main_v38 (F := Ideal) x0 x1 x2 (ix2 r c)
      = if c.val = 0 then 0 else val_main_v35 (F := Ideal) x0 x1 x2 (ix2 r c) :=
  Cert.Lib.colSet_const_apply scatter_S50000x394_S1_S50000_0_1_1_0 rfl rfl rfl rfl
    (val_main_v35 (F := Ideal) x0 x1 x2) (val_main_v36 (F := Ideal)) 0 idx36 (by omega)
    (val_main_v37 (F := Ideal)) 0 upd37 (ix2 r c)

/-- The 788-column table with column 0 overwritten, at (r, j). -/
theorem v42_at (r : Fin 50000) (j : Fin 788) :
    val_main_v42 (F := Ideal) x0 x1 x2 (ix2 r j)
      = if j.val = 0 then 0 else val_main_v39 (F := Ideal) x0 x1 x2 (ix2 r j) :=
  Cert.Lib.colSet_const_apply scatter_S50000x788_S1_S50000_0_1_1_0 rfl rfl rfl rfl
    (val_main_v39 (F := Ideal) x0 x1 x2) (val_main_v40 (F := Ideal)) 0 idx40 (by omega)
    (val_main_v41 (F := Ideal)) 0 upd41 (ix2 r j)

/-- … and then column 394 overwritten, at (r, j). -/
theorem v45_at (r : Fin 50000) (j : Fin 788) :
    val_main_v45 (F := Ideal) x0 x1 x2 (ix2 r j)
      = if j.val = 394 then 0 else val_main_v42 (F := Ideal) x0 x1 x2 (ix2 r j) :=
  Cert.Lib.colSet_const_apply scatter_S50000x788_S1_S50000_0_1_1_0 rfl rfl rfl rfl
    (val_main_v42 (F := Ideal) x0 x1 x2) (val_main_v43 (F := Ideal)) 394 idx43 (by omega)
    (val_main_v44 (F := Ideal)) 0 upd44 (ix2 r j)

/-! ### The two aggregates -/

/-- Overwriting column 0 of the first aggregate with zeros gives the masked first aggregate. -/
theorem ref_h1 : val_main_v23 (F := Ideal) x0 x1 x2 = Cert.KernelIdeal.HostVal.h1 x0 x1 x2 := by
  funext i
  obtain ⟨r, c, rfl⟩ : ∃ (r : Fin 50000) (c : Fin 394), i = ix2 r c := ⟨i 0, i 1, eq_ix2 i⟩
  rw [v23_at, Cert.KernelIdeal.HostVal.h1_apply, ref_agg]

/-- Before its column 0 is overwritten, the reference's second aggregate is already the kernel program's. -/
theorem v35_h2 : val_main_v35 (F := Ideal) x0 x1 x2 = Cert.KernelIdeal.HostVal.h2 x0 x1 x2 := by
  rw [v35_eq, ref_h1]
  rfl

/-- Overwriting column 0 of the second aggregate changes nothing: that column is zero already. -/
theorem ref_h2 : val_main_v38 (F := Ideal) x0 x1 x2 = Cert.KernelIdeal.HostVal.h2 x0 x1 x2 := by
  funext i
  obtain ⟨r, c, rfl⟩ : ∃ (r : Fin 50000) (c : Fin 394), i = ix2 r c := ⟨i 0, i 1, eq_ix2 i⟩
  rw [v38_at, v35_h2]
  by_cases h : c.val = 0
  · obtain rfl : c = (0 : Fin 394) := Fin.ext h
    rw [if_pos h, Cert.KernelIdeal.HostVal.h2_col0]
  · rw [if_neg h]

/-! ### The embedding matrix -/

/-- The features and the second aggregate side by side: a column below 394 is a feature column. -/
theorem v39_left (r : Fin 50000) (j : Fin 788) (h : j.val < 394) :
    val_main_v39 (F := Ideal) x0 x1 x2 (ix2 r j) = x0 (ix2 r (⟨j.val, h⟩ : Fin 394)) :=
  Cert.Lib.concat_cols_left x0 (val_main_v38 (F := Ideal) x0 x1 x2)
    Cert.ReferenceIdeal.Gen.concatenates_S50000x394_S50000x394_S50000x788_d1 r (⟨j.val, h⟩ : Fin 394) j rfl

/-- … and column 394 + k is column k of the second aggregate. -/
theorem v39_right (r : Fin 50000) (j : Fin 788) (h : 394 ≤ j.val) :
    val_main_v39 (F := Ideal) x0 x1 x2 (ix2 r j)
      = val_main_v38 (F := Ideal) x0 x1 x2 (ix2 r (⟨j.val - 394, by have := j.isLt; omega⟩ : Fin 394)) :=
  Cert.Lib.concat_cols_right x0 (val_main_v38 (F := Ideal) x0 x1 x2)
    Cert.ReferenceIdeal.Gen.concatenates_S50000x394_S50000x394_S50000x788_d1 r
    (⟨j.val - 394, by have := j.isLt; omega⟩ : Fin 394) j (by show j.val = 394 + (j.val - 394); omega)

/-- A column of the second aggregate whose number is 0 is zero. -/
theorem h2_zero_col (r : Fin 50000) (k : Fin 394) (hk : k.val = 0) :
    Cert.KernelIdeal.HostVal.h2 x0 x1 x2 (ix2 r k) = 0 := by
  obtain rfl : k = (0 : Fin 394) := Fin.ext hk
  exact Cert.KernelIdeal.HostVal.h2_col0 x0 x1 x2 r

/-- Row r of the embedding matrix: the features of r with feature 0 replaced by zero, then row r of the second
    aggregate. -/
theorem ref_emb (r : Fin 50000) (j : Fin 788) :
    val_main_v45 (F := Ideal) x0 x1 x2 (ix2 r j)
      = Cert.Spec.embAt (Cert.Spec.cur x0) (Cert.Spec.cur (Cert.KernelIdeal.HostVal.h2 x0 x1 x2)) r j := by
  rw [v45_at, v42_at]
  unfold Cert.Spec.embAt
  by_cases h : j.val < 394
  · rw [dif_pos h, if_neg (by omega : ¬ j.val = 394), v39_left x0 x1 x2 r j h]
    rfl
  · rw [dif_neg h]
    by_cases h394 : j.val = 394
    · rw [if_pos h394]
      exact (h2_zero_col x0 x1 x2 r _ (by show j.val - 394 = 0; omega)).symm
    · rw [if_neg h394, if_neg (by omega : ¬ j.val = 0), v39_right x0 x1 x2 r j (by omega), ref_h2]
      rfl

/-- The same, for the whole matrix read by its two coordinates. -/
theorem ref_emb_cur :
    Cert.Spec.cur (val_main_v45 (F := Ideal) x0 x1 x2)
      = Cert.Spec.embAt (Cert.Spec.cur x0) (Cert.Spec.cur (Cert.KernelIdeal.HostVal.h2 x0 x1 x2)) :=
  funext fun r => funext fun j => ref_emb x0 x1 x2 r j

end Cert.ReferenceIdeal.RefHost

end
-- ==== Proof.lean ====
/-
  Equivalence, over the extended reals, of a fused graph-autoencoder kernel and its reference.

  Both programs aggregate each node's neighbours twice (a gather at the edge sources, an accumulating scatter at the
  edge destinations, a division by the in-degree), zero feature 0, join a node's own features with its second aggregate
  into a 788-entry embedding row, and push the embedding through a four-layer autoencoder (788 → 192 → 128 → 192 → 788,
  rectified after the first and third layers). They return the encoder's output, the decoder's output and the embedding.

  The kernel program differs from the reference in three ways, none of which changes a value at the extended reals:
  * it zeroes feature 0 of the first aggregate by a product with a 0/1 mask where the reference overwrites the column
    (x · 0 = 0 and x · 1 = x for every extended real x), and it does not zero feature 0 of the second aggregate at all:
    that column is zero plus a sum of entries of the first aggregate's zero column, times the inverse degree, hence zero;
  * it builds the embedding inside the kernel, 1000 rows at a time, and runs the autoencoder on each block of rows: every
    output row depends on that row of the embedding alone, so the blocks tile what the reference computes at once;
  * it feeds the matrix unit 16-bit copies of the weights and activations: a change of float format is the identity here,
    and each product into a zero accumulator is the exact sum the reference's product is.
  No law used needs finiteness, so the precondition is never opened.

  The frames of the two kernel programs are the generated ones. The reference has no kernel: its run is the fold of its
  host operations (RefRunP), read back stage by stage (RefStages, RefReadP), the autoencoder as sums (RefMlp) and the
  aggregation identified with the kernel program's (RefHost). On the kernel side the generated value leg names each
  output array after the run; KernelBlocks shows it is one function of the arrays the region finds, KernelWindows reads
  those arrays off the host operations before the region, KernelPayload reads the body's stored values at an index.
-/
import proofs.«148973_j77421080477948_2_alg».proof.Defs
import proofs.«148973_j77421080477948_2_alg».proof.Proof.Gen.Kernel
import proofs.«148973_j77421080477948_2_alg».proof.Proof.Gen.Kernel.Skeleton
import proofs.«148973_j77421080477948_2_alg».proof.Proof.Gen.Kernel.Launch
import proofs.«148973_j77421080477948_2_alg».proof.Proof.Gen.Kernel.Points
import proofs.«148973_j77421080477948_2_alg».proof.Proof.Gen.Kernel.Frame
import proofs.«148973_j77421080477948_2_alg».proof.Proof.Gen.KernelIdeal
import proofs.«148973_j77421080477948_2_alg».proof.Proof.Gen.KernelIdeal.Skeleton
import proofs.«148973_j77421080477948_2_alg».proof.Proof.Gen.KernelIdeal.Launch
import proofs.«148973_j77421080477948_2_alg».proof.Proof.Gen.KernelIdeal.Points
import proofs.«148973_j77421080477948_2_alg».proof.Proof.Gen.KernelIdeal.Frame
import proofs.«148973_j77421080477948_2_alg».proof.Proof.Gen.ReferenceIdeal
import proofs.«148973_j77421080477948_2_alg».proof.Proof.Gen.Pre_finite_inputs
import proofs.«148973_j77421080477948_2_alg».proof.Proof.Gen.KernelIdeal.Value
import proofs.«148973_j77421080477948_2_alg».proof.Proof.Spec
import proofs.«148973_j77421080477948_2_alg».proof.Proof.KernelWindows
import proofs.«148973_j77421080477948_2_alg».proof.Proof.KernelBlocks
import proofs.«148973_j77421080477948_2_alg».proof.Proof.RefRunP
import proofs.«148973_j77421080477948_2_alg».proof.Proof.RefStages
import proofs.«148973_j77421080477948_2_alg».proof.Proof.RefMlp
import proofs.«148973_j77421080477948_2_alg».proof.Proof.RefHost
import Idealize.ShloMosaic.Adequacy
import Idealize.ShloMosaic.Init

noncomputable section

namespace Cert.Proof

open Idealize.ShloMosaic Idealize.ShloMosaic.TcCoe Idealize.SL.Sem Idealize.ShloMosaic.ValueIdx

/-! ## The three results as functions of the argument arrays -/

section Results

variable (a0 : (⟨2, ![50000, 394]⟩ : Shape).Idx → EReal) (a1 a2 : IVec ⟨1, ![200000]⟩ 32)
  (a3 : (⟨2, ![788, 192]⟩ : Shape).Idx → EReal) (a4 : (⟨1, ![192]⟩ : Shape).Idx → EReal)
  (a5 : (⟨2, ![192, 128]⟩ : Shape).Idx → EReal) (a6 : (⟨1, ![128]⟩ : Shape).Idx → EReal)
  (a7 : (⟨2, ![128, 192]⟩ : Shape).Idx → EReal) (a8 : (⟨1, ![192]⟩ : Shape).Idx → EReal)
  (a9 : (⟨2, ![192, 788]⟩ : Shape).Idx → EReal) (a10 : (⟨1, ![788]⟩ : Shape).Idx → EReal)

/-- The embedding: a node's features with feature 0 zeroed, then its second aggregate. -/
def embOf : (⟨2, ![50000, 788]⟩ : Shape).Idx → EReal := fun i =>
  Cert.Spec.embAt (Cert.Spec.cur a0) (Cert.Spec.cur (Cert.KernelIdeal.HostVal.h2 a0 a1 a2)) (i 0) (i 1)

/-- The encoder's output on the embedding. -/
def encOfArgs : (⟨2, ![50000, 128]⟩ : Shape).Idx → EReal := fun i =>
  Cert.Spec.encOf (Cert.Spec.cur a3) (Cert.Spec.cur1 a4) (Cert.Spec.cur a5) (Cert.Spec.cur1 a6)
    (Cert.Spec.embAt (Cert.Spec.cur a0) (Cert.Spec.cur (Cert.KernelIdeal.HostVal.h2 a0 a1 a2))) (i 0) (i 1)

/-- The decoder's output on the encoder's. -/
def decOfArgs : (⟨2, ![50000, 788]⟩ : Shape).Idx → EReal := fun i =>
  Cert.Spec.decOf (Cert.Spec.cur a7) (Cert.Spec.cur1 a8) (Cert.Spec.cur a9) (Cert.Spec.cur1 a10)
    (Cert.Spec.encOf (Cert.Spec.cur a3) (Cert.Spec.cur1 a4) (Cert.Spec.cur a5) (Cert.Spec.cur1 a6)
      (Cert.Spec.embAt (Cert.Spec.cur a0) (Cert.Spec.cur (Cert.KernelIdeal.HostVal.h2 a0 a1 a2)))) (i 0) (i 1)

/-- The reference's embedding stage is `embOf`. -/
theorem ref_emb_eq : Cert.ReferenceIdeal.ReadP.val_main_v45 (F := Ideal) a0 a1 a2 = embOf a0 a1 a2 := by
  funext i
  obtain ⟨r, j, rfl⟩ : ∃ (r : Fin 50000) (j : Fin 788), i = ix2 r j := ⟨i 0, i 1, eq_ix2 i⟩
  exact Cert.ReferenceIdeal.RefHost.ref_emb a0 a1 a2 r j

/-- The reference's embedding, curried, is the embedding row function. -/
theorem ref_emb_cur : Cert.Spec.cur (Cert.ReferenceIdeal.ReadP.val_main_v45 (F := Ideal) a0 a1 a2)
    = Cert.Spec.embAt (Cert.Spec.cur a0) (Cert.Spec.cur (Cert.KernelIdeal.HostVal.h2 a0 a1 a2)) :=
  funext fun r => funext fun j => Cert.ReferenceIdeal.RefHost.ref_emb a0 a1 a2 r j

/-- The reference's encoder stage is `encOfArgs`. -/
theorem ref_enc_eq : Cert.ReferenceIdeal.ReadP.val_main_v54 (F := Ideal) a0 a1 a2 a3 a4 a5 a6 = encOfArgs a0 a1 a2 a3 a4 a5 a6 := by
  funext i
  obtain ⟨r, a, rfl⟩ : ∃ (r : Fin 50000) (a : Fin 128), i = ix2 r a := ⟨i 0, i 1, eq_ix2 i⟩
  refine (Cert.ReferenceIdeal.RefMlp.ref_enc a0 a1 a2 a3 a4 a5 a6 r a).trans ?_
  rw [ref_emb_cur]
  rfl

/-- The reference's decoder stage is `decOfArgs`. -/
theorem ref_dec_eq : Cert.ReferenceIdeal.ReadP.val_main_v63 (F := Ideal) a0 a1 a2 a3 a4 a5 a6 a7 a8 a9 a10
    = decOfArgs a0 a1 a2 a3 a4 a5 a6 a7 a8 a9 a10 := by
  funext i
  obtain ⟨r, j, rfl⟩ : ∃ (r : Fin 50000) (j : Fin 788), i = ix2 r j := ⟨i 0, i 1, eq_ix2 i⟩
  refine (Cert.ReferenceIdeal.RefMlp.ref_dec a0 a1 a2 a3 a4 a5 a6 a7 a8 a9 a10 r j).trans ?_
  rw [ref_emb_cur]
  rfl

end Results

/-! ## The kernel program's run, read -/

section KernelRun

open Cert.KernelIdeal Cert.KernelIdeal.Gen

variable (m : (ℓ : Loc Cert.KernelIdeal.nD Cert.KernelIdeal.τ Cert.KernelIdeal.sig) → Buf (Elt Ideal) ℓ)

/-- The embedding array after the kernel program's run. -/
theorem kernel_emb (c : Dev nD) : (dats m 0 c).arrAt 10 cfg0.N
    = embOf (m ((c : Thread nD τ).loc main_arg0)) (m ((c : Thread nD τ).loc main_arg1)) (m ((c : Thread nD τ).loc main_arg2)) := by
  rw [Cert.KernelIdeal.Blocks.final10]
  unfold Cert.KernelIdeal.Blocks.Gemb embOf
  rw [V_main_arg0, Cert.KernelIdeal.HostVal.V_h2]

/-- The encoder's output array after the kernel program's run. -/
theorem kernel_enc (c : Dev nD) : (dats m 0 c).arrAt 11 cfg0.N
    = encOfArgs (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [Cert.KernelIdeal.Blocks.final11]
  unfold Cert.KernelIdeal.Blocks.Genc encOfArgs
  rw [V_main_arg0, Cert.KernelIdeal.HostVal.V_h2, Cert.KernelIdeal.HostVal.V_w1, Cert.KernelIdeal.HostVal.V_b1,
    Cert.KernelIdeal.HostVal.V_w3, Cert.KernelIdeal.HostVal.V_b3]

/-- The decoder's output array after the kernel program's run. -/
theorem kernel_dec (c : Dev nD) : (dats m 0 c).arrAt 12 cfg0.N
    = decOfArgs (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  rw [Cert.KernelIdeal.Blocks.final12]
  unfold Cert.KernelIdeal.Blocks.Gdec decOfArgs
  rw [V_main_arg0, Cert.KernelIdeal.HostVal.V_h2, Cert.KernelIdeal.HostVal.V_w1, Cert.KernelIdeal.HostVal.V_b1,
    Cert.KernelIdeal.HostVal.V_w3, Cert.KernelIdeal.HostVal.V_b3, Cert.KernelIdeal.HostVal.V_wd1, Cert.KernelIdeal.HostVal.V_bd1,
    Cert.KernelIdeal.HostVal.V_wd3, Cert.KernelIdeal.HostVal.V_bd3]

end KernelRun

/-! ## The claims -/

theorem frame_k : Cert.frame_Kernel := fun m ρ _ => Cert.Kernel.Gen.frame m ρ

theorem frame_ki : Cert.frame_KernelIdeal := fun m ρ _ => Cert.KernelIdeal.Gen.frame m ρ

open Cert.ReferenceIdeal.RefStages in
/-- The reference's frame: its run, with the argument buffers read back unchanged. -/
theorem frame_ri : Cert.frame_ReferenceIdeal := fun m ρ _ =>
  (θ_run Cert.ReferenceIdeal.defs _ _).mono (fun r h c =>
    ⟨(h c _).trans (after_arg0 m c), (h c _).trans (after_arg1 m c), (h c _).trans (after_arg2 m c),
     (h c _).trans (after_arg3 m c), (h c _).trans (after_arg4 m c), (h c _).trans (after_arg5 m c),
     (h c _).trans (after_arg6 m c), (h c _).trans (after_arg7 m c), (h c _).trans (after_arg8 m c),
     (h c _).trans (after_arg9 m c), (h c _).trans (after_arg10 m c)⟩)
    (Cert.ReferenceIdeal.ValueP.run (F := Ideal) m ρ)

theorem preserves : Cert.preserves_Kernel_KernelIdeal := trivial

open Cert.ReferenceIdeal.RefStages in
/-- Both idealized programs end with the encoder's output, the decoder's output and the embedding at the same three
    functions of the (agreeing) argument arrays. -/
theorem algebraic : Cert.algebraic_KernelIdeal_ReferenceIdeal := by
  intro m ρ m' ρ' _ hagree
  refine ⟨fun c => encOfArgs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => decOfArgs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => embOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Value.run_blocks (F := Ideal) m ρ)
    obtain ⟨h10, h11, h12, hargs⟩ := h c
    exact ⟨h11.trans (kernel_enc m c), h12.trans (kernel_dec m c), h10.trans (kernel_emb m c), hargs⟩
  · refine (θ_run Cert.ReferenceIdeal.defs _ _).mono (fun r h c => ?_) (Cert.ReferenceIdeal.ValueP.run (F := Ideal) m' ρ')
    obtain ⟨e0, e1, e2, e3, e4, e5, e6, e7, e8, e9, e10⟩ := hagree c
    refine ⟨?_, ?_, ?_, (h c _).trans (after_arg0 m' c), (h c _).trans (after_arg1 m' c), (h c _).trans (after_arg2 m' c),
     (h c _).trans (after_arg3 m' c), (h c _).trans (after_arg4 m' c), (h c _).trans (after_arg5 m' c),
     (h c _).trans (after_arg6 m' c), (h c _).trans (after_arg7 m' c), (h c _).trans (after_arg8 m' c),
     (h c _).trans (after_arg9 m' c), (h c _).trans (after_arg10 m' c)⟩
    · refine (h c _).trans ((after_v54 m' c).trans ?_)
      rw [ref_enc_eq, e0, e1, e2, e3, e4, e5, e6]
    · refine (h c _).trans ((after_v63 m' c).trans ?_)
      rw [ref_dec_eq, e0, e1, e2, e3, e4, e5, e6, e7, e8, e9, e10]
    · refine (h c _).trans ((after_v45 m' c).trans ?_)
      rw [ref_emb_eq, e0, e1, e2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
